-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x9 : Shape := ⟨2, ![262144, 9]⟩
abbrev S262144x6 : Shape := ⟨2, ![262144, 6]⟩
abbrev S9x256 : Shape := ⟨2, ![9, 256]⟩
abbrev S6x256 : Shape := ⟨2, ![6, 256]⟩
abbrev S256x256 : Shape := ⟨2, ![256, 256]⟩
abbrev S128x5 : Shape := ⟨2, ![128, 5]⟩
abbrev S128x4 : Shape := ⟨2, ![128, 4]⟩
abbrev S_ : Shape := ⟨0, ![]⟩

class Facts : Prop where
  bcast_S_S262144x9 : S_.BroadcastsInDim S262144x9 (![] : Fin 0 → Fin S262144x9.rank)
  reducesTo_S262144x9_S_d0_1 : S262144x9.ReducesTo [0, 1] S_
  h_S_ : 0 < S_.numel
  bcast_S_S262144x6 : S_.BroadcastsInDim S262144x6 (![] : Fin 0 → Fin S262144x6.rank)
  reducesTo_S262144x6_S_d0_1 : S262144x6.ReducesTo [0, 1] S_
  bcast_S_S9x256 : S_.BroadcastsInDim S9x256 (![] : Fin 0 → Fin S9x256.rank)
  reducesTo_S9x256_S_d0_1 : S9x256.ReducesTo [0, 1] S_
  bcast_S_S6x256 : S_.BroadcastsInDim S6x256 (![] : Fin 0 → Fin S6x256.rank)
  reducesTo_S6x256_S_d0_1 : S6x256.ReducesTo [0, 1] S_
  bcast_S_S256x256 : S_.BroadcastsInDim S256x256 (![] : Fin 0 → Fin S256x256.rank)
  reducesTo_S256x256_S_d0_1 : S256x256.ReducesTo [0, 1] S_
  bcast_S_S128x5 : S_.BroadcastsInDim S128x5 (![] : Fin 0 → Fin S128x5.rank)
  reducesTo_S128x5_S_d0_1 : S128x5.ReducesTo [0, 1] S_
  bcast_S_S128x4 : S_.BroadcastsInDim S128x4 (![] : Fin 0 → Fin S128x4.rank)
  reducesTo_S128x4_S_d0_1 : S128x4.ReducesTo [0, 1] S_

variable [Facts]

def fn_part1 {F : FTy → Type} [FloatOps F] (main_arg4 : FVec F S256x256 .f32) (main_arg5 : FVec F S128x5 .f32) (main_arg6 : FVec F S128x4 .f32) (main_v13 : IVec S_ 1) (main_v16 : IVec S6x256 1) : IVec S_ 1 :=
  let main_c_5 : IVec S_ 1 := constantI S_ 1 1#1
  let main_v17 : IVec S_ 1 := (fun x v => Host.reduce IntOp.andi x v reducesTo_S6x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S128x5 .f32 := Host.absf main_arg5
  let main_cst_8 : FVec F S_ .f32 := constant S_ .f32 0x7F800000#32
  let main_v25 : FVec F S128x5 .f32 := broadcastInDim S128x5 ![] bcast_S_S128x5 main_cst_8
  let main_v26 : IVec S128x5 1 := cmpf .olt main_v24 main_v25
  let main_c_9 : IVec S_ 1 := constantI S_ 1 1#1
  let main_v27 : IVec S_ 1 := (fun x v => Host.reduce IntOp.andi x v reducesTo_S128x5_S_d0_1 h_S_) main_v26 main_c_9
  let main_v28 : IVec S_ 1 := andi main_v23 main_v27
  let main_v29 : FVec F S128x4 .f32 := Host.absf main_arg6
  let main_cst_10 : FVec F S_ .f32 := constant S_ .f32 0x7F800000#32
  let main_v30 : FVec F S128x4 .f32 := broadcastInDim S128x4 ![] bcast_S_S128x4 main_cst_10
  let main_v31 : IVec S128x4 1 := cmpf .olt main_v29 main_v30
  let main_c_11 : IVec S_ 1 := constantI S_ 1 1#1
  let main_v32 : IVec S_ 1 := (fun x v => Host.reduce IntOp.andi x v reducesTo_S128x4_S_d0_1 h_S_) main_v31 main_c_11
  let main_v33 : IVec S_ 1 := andi main_v28 main_v32
  main_v33

def fn {F : FTy → Type} [FloatOps F] (main_arg0 : FVec F S262144x9 .f32) (main_arg1 : FVec F S262144x6 .f32) (main_arg2 : FVec F S9x256 .f32) (main_arg3 : FVec F S6x256 .f32) (main_arg4 : FVec F S256x256 .f32) (main_arg5 : FVec F S128x5 .f32) (main_arg6 : FVec F S128x4 .f32) : IVec S_ 1 :=
  let main_v0 : FVec F S262144x9 .f32 := Host.absf main_arg0
  let main_cst : FVec F S_ .f32 := constant S_ .f32 0x7F800000#32
  let main_v1 : FVec F S262144x9 .f32 := broadcastInDim S262144x9 ![] bcast_S_S262144x9 main_cst
  let main_v2 : IVec S262144x9 1 := cmpf .olt main_v0 main_v1
  let main_c : IVec S_ 1 := constantI S_ 1 1#1
  let main_v3 : IVec S_ 1 := (fun x v => Host.reduce IntOp.andi x v reducesTo_S262144x9_S_d0_1 h_S_) main_v2 main_c
  let main_v4 : FVec F S262144x6 .f32 := Host.absf main_arg1
  let main_cst_0 : FVec F S_ .f32 := constant S_ .f32 0x7F800000#32
  let main_v5 : FVec F S262144x6 .f32 := broadcastInDim S262144x6 ![] bcast_S_S262144x6 main_cst_0
  let main_v6 : IVec S262144x6 1 := cmpf .olt main_v4 main_v5
  let main_c_1 : IVec S_ 1 := constantI S_ 1 1#1
  let main_v7 : IVec S_ 1 := (fun x v => Host.reduce IntOp.andi x v reducesTo_S262144x6_S_d0_1 h_S_) main_v6 main_c_1
  let main_v8 : IVec S_ 1 := andi main_v3 main_v7
  let main_v9 : FVec F S9x256 .f32 := Host.absf main_arg2
  let main_cst_2 : FVec F S_ .f32 := constant S_ .f32 0x7F800000#32
  let main_v10 : FVec F S9x256 .f32 := broadcastInDim S9x256 ![] bcast_S_S9x256 main_cst_2
  let main_v11 : IVec S9x256 1 := cmpf .olt main_v9 main_v10
  let main_c_3 : IVec S_ 1 := constantI S_ 1 1#1
  let main_v12 : IVec S_ 1 := (fun x v => Host.reduce IntOp.andi x v reducesTo_S9x256_S_d0_1 h_S_) main_v11 main_c_3
  let main_v13 : IVec S_ 1 := andi main_v8 main_v12
  let main_v14 : FVec F S6x256 .f32 := Host.absf main_arg3
  let main_cst_4 : FVec F S_ .f32 := constant S_ .f32 0x7F800000#32
  let main_v15 : FVec F S6x256 .f32 := broadcastInDim S6x256 ![] bcast_S_S6x256 main_cst_4
  let main_v16 : IVec S6x256 1 := cmpf .olt main_v14 main_v15
  fn_part1 (F := F) main_arg4 main_arg5 main_arg6 main_v13 main_v16
-- ==== Kernel.lean ====
abbrev S262144x9 : Shape := ⟨2, ![262144, 9]⟩
abbrev S262144x6 : Shape := ⟨2, ![262144, 6]⟩
abbrev S9x256 : Shape := ⟨2, ![9, 256]⟩
abbrev S6x256 : Shape := ⟨2, ![6, 256]⟩
abbrev S256x256 : Shape := ⟨2, ![256, 256]⟩
abbrev S128x5 : Shape := ⟨2, ![128, 5]⟩
abbrev S128x4 : Shape := ⟨2, ![128, 4]⟩
abbrev S2048x9 : Shape := ⟨2, ![2048, 9]⟩
abbrev S2048x6 : Shape := ⟨2, ![2048, 6]⟩
abbrev S2048x256 : Shape := ⟨2, ![2048, 256]⟩
abbrev S2048x128 : Shape := ⟨2, ![2048, 128]⟩
abbrev S2048x5 : Shape := ⟨2, ![2048, 5]⟩
abbrev S2048x4 : Shape := ⟨2, ![2048, 4]⟩
abbrev S2048x1 : Shape := ⟨2, ![2048, 1]⟩

abbrev nBuf : Space → Nat
  | .hbm => 8
  | .vmem => 11
  | .smem => 0
  | _ => 0

abbrev bufTy : (tb : Table) → Fin (tcTables nBuf tb) → BufTy
  | .hbm, ⟨0, _⟩ => ⟨S262144x9, .f32⟩
  | .hbm, ⟨1, _⟩ => ⟨S262144x6, .f32⟩
  | .hbm, ⟨2, _⟩ => ⟨S9x256, .f32⟩
  | .hbm, ⟨3, _⟩ => ⟨S6x256, .f32⟩
  | .hbm, ⟨4, _⟩ => ⟨S256x256, .f32⟩
  | .hbm, ⟨5, _⟩ => ⟨S128x5, .f32⟩
  | .hbm, ⟨6, _⟩ => ⟨S128x4, .f32⟩
  | .hbm, ⟨7, _⟩ => ⟨S262144x9, .f32⟩
  | .local _ .vmem, ⟨0, _⟩ => ⟨S2048x9, .f32⟩
  | .local _ .vmem, ⟨1, _⟩ => ⟨S2048x9, .f32⟩
  | .local _ .vmem, ⟨2, _⟩ => ⟨S2048x6, .f32⟩
  | .local _ .vmem, ⟨3, _⟩ => ⟨S2048x6, .f32⟩
  | .local _ .vmem, ⟨4, _⟩ => ⟨S9x256, .f32⟩
  | .local _ .vmem, ⟨5, _⟩ => ⟨S6x256, .f32⟩
  | .local _ .vmem, ⟨6, _⟩ => ⟨S256x256, .f32⟩
  | .local _ .vmem, ⟨7, _⟩ => ⟨S128x5, .f32⟩
  | .local _ .vmem, ⟨8, _⟩ => ⟨S128x4, .f32⟩
  | .local _ .vmem, ⟨9, _⟩ => ⟨S2048x9, .f32⟩
  | .local _ .vmem, ⟨10, _⟩ => ⟨S2048x9, .f32⟩
  | _, _ => ⟨S262144x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x9 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S2048x9_S2048x9_0_0 : ∀ a, (![0, 0] : Fin 2 → Nat) a + S2048x9.size a ≤ S2048x9.size a
  h_S2048x9 : 0 < S2048x9.numel
  bitsLt_bf16_f32 : FTy.bits .bf16 < FTy.bits .f32
  inb_S2048x6_S2048x6_0_0 : ∀ a, (![0, 0] : Fin 2 → Nat) a + S2048x6.size a ≤ S2048x6.size a
  h_S2048x6 : 0 < S2048x6.numel
  inb_S9x256_S9x256_0_0 : ∀ a, (![0, 0] : Fin 2 → Nat) a + S9x256.size a ≤ S9x256.size a
  h_S9x256 : 0 < S9x256.numel
  inb_S6x256_S6x256_0_0 : ∀ a, (![0, 0] : Fin 2 → Nat) a + S6x256.size a ≤ S6x256.size a
  h_S6x256 : 0 < S6x256.numel
  inb_S256x256_S256x256_0_0 : ∀ a, (![0, 0] : Fin 2 → Nat) a + S256x256.size a ≤ S256x256.size a
  h_S256x256 : 0 < S256x256.numel
  inb_S128x5_S128x5_0_0 : ∀ a, (![0, 0] : Fin 2 → Nat) a + S128x5.size a ≤ S128x5.size a
  h_S128x5 : 0 < S128x5.numel
  inb_S128x4_S128x4_0_0 : ∀ a, (![0, 0] : Fin 2 → Nat) a + S128x4.size a ≤ S128x4.size a
  h_S128x4 : 0 < S128x4.numel
  slices_S2048x256_o0_0_S2048x128 : S2048x256.Slices ![0, 0] S2048x128
  slices_S2048x256_o0_128_S2048x128 : S2048x256.Slices ![0, 128] S2048x128
  slices_S2048x5_o0_0_S2048x1 : S2048x5.Slices ![0, 0] S2048x1
  slices_S2048x5_o0_1_S2048x1 : S2048x5.Slices ![0, 1] S2048x1
  slices_S2048x5_o0_2_S2048x1 : S2048x5.Slices ![0, 2] S2048x1
  slices_S2048x4_o0_0_S2048x1 : S2048x4.Slices ![0, 0] S2048x1
  slices_S2048x4_o0_1_S2048x1 : S2048x4.Slices ![0, 1] S2048x1
  inb_S2048x9_S2048x1_0_0 : ∀ a, (![0, 0] : Fin 2 → Nat) a + S2048x1.size a ≤ S2048x9.size a
  h_S2048x1 : 0 < S2048x1.numel
  inb_S2048x9_S2048x1_0_1 : ∀ a, (![0, 1] : Fin 2 → Nat) a + S2048x1.size a ≤ S2048x9.size a
  inb_S2048x9_S2048x1_0_2 : ∀ a, (![0, 2] : Fin 2 → Nat) a + S2048x1.size a ≤ S2048x9.size a
  inb_S2048x9_S2048x1_0_3 : ∀ a, (![0, 3] : Fin 2 → Nat) a + S2048x1.size a ≤ S2048x9.size a
  inb_S2048x9_S2048x1_0_4 : ∀ a, (![0, 4] : Fin 2 → Nat) a + S2048x1.size a ≤ S2048x9.size a
  slices_S2048x5_o0_3_S2048x1 : S2048x5.Slices ![0, 3] S2048x1
  inb_S2048x9_S2048x1_0_5 : ∀ a, (![0, 5] : Fin 2 → Nat) a + S2048x1.size a ≤ S2048x9.size a
  slices_S2048x5_o0_4_S2048x1 : S2048x5.Slices ![0, 4] S2048x1
  inb_S2048x9_S2048x1_0_6 : ∀ a, (![0, 6] : Fin 2 → Nat) a + S2048x1.size a ≤ S2048x9.size a
  slices_S2048x4_o0_2_S2048x1 : S2048x4.Slices ![0, 2] S2048x1
  inb_S2048x9_S2048x1_0_7 : ∀ a, (![0, 7] : Fin 2 → Nat) a + S2048x1.size a ≤ S2048x9.size a
  slices_S2048x4_o0_3_S2048x1 : S2048x4.Slices ![0, 3] S2048x1
  inb_S2048x9_S2048x1_0_8 : ∀ a, (![0, 8] : Fin 2 → Nat) a + S2048x1.size a ≤ S2048x9.size a
  dot_S2048x9_S9x256_S2048x256_1_0_0_1_n_n_wf : DotDims.WF S2048x9 S9x256 S2048x256 [1] [0] [0] [1] [] []
  dot_S2048x256_S256x256_S2048x256_1_0_0_1_n_n_wf : DotDims.WF S2048x256 S256x256 S2048x256 [1] [0] [0] [1] [] []
  dot_S2048x6_S6x256_S2048x256_1_0_0_1_n_n_wf : DotDims.WF S2048x6 S6x256 S2048x256 [1] [0] [0] [1] [] []
  dot_S2048x128_S128x5_S2048x5_1_0_0_1_n_n_wf : DotDims.WF S2048x128 S128x5 S2048x5 [1] [0] [0] [1] [] []
  dot_S2048x128_S128x4_S2048x4_1_0_0_1_n_n_wf : DotDims.WF S2048x128 S128x4 S2048x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x9.size a ≤ S262144x9.size a
  hwx0_0 : ∀ i : grid0.Coords, EltTy.bits .f32 = 32 ∨ (Rect.block (s := S262144x9) S2048x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x6.size a ≤ S262144x6.size a
  hwx0_1 : ∀ i : grid0.Coords, EltTy.bits .f32 = 32 ∨ (Rect.block (s := S262144x6) S2048x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x256.size a ≤ S9x256.size a
  hwx0_2 : ∀ i : grid0.Coords, EltTy.bits .f32 = 32 ∨ (Rect.block (s := S9x256) S9x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x256.size a ≤ S6x256.size a
  hwx0_3 : ∀ i : grid0.Coords, EltTy.bits .f32 = 32 ∨ (Rect.block (s := S6x256) S6x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x5.size a ≤ S128x5.size a
  hwx0_5 : ∀ i : grid0.Coords, EltTy.bits .f32 = 32 ∨ (Rect.block (s := S128x5) S128x5.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x4.size a ≤ S128x4.size a
  hwx0_6 : ∀ i : grid0.Coords, EltTy.bits .f32 = 32 ∨ (Rect.block (s := S128x4) S128x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x9.size a ≤ S262144x9.size a
  hwx0_7 : ∀ i : grid0.Coords, EltTy.bits .f32 = 32 ∨ (Rect.block (s := S262144x9) S2048x9.size (cc0_transform_7 i) (hinb0_7 i)).WholeWords (EltTy.packing .f32)

variable [Facts₀]

def dot_S2048x9_S9x256_S2048x256_1_0_0_1_n_n : DotDims S2048x9 S9x256 S2048x256 where
  lhsContracting := [1]
  rhsContracting := [0]
  lhsNonContracting := [0]
  rhsNonContracting := [1]
  lhsBatch := []
  rhsBatch := []
  wf := dot_S2048x9_S9x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x6_S6x256_S2048x256_1_0_0_1_n_n : DotDims S2048x6 S6x256 S2048x256 where
  lhsContracting := [1]
  rhsContracting := [0]
  lhsNonContracting := [0]
  rhsNonContracting := [1]
  lhsBatch := []
  rhsBatch := []
  wf := dot_S2048x6_S6x256_S2048x256_1_0_0_1_n_n_wf
def dot_S2048x128_S128x5_S2048x5_1_0_0_1_n_n : DotDims S2048x128 S128x5 S2048x5 where
  lhsContracting := [1]
  rhsContracting := [0]
  lhsNonContracting := [0]
  rhsNonContracting := [1]
  lhsBatch := []
  rhsBatch := []
  wf := dot_S2048x128_S128x5_S2048x5_1_0_0_1_n_n_wf
def dot_S2048x128_S128x4_S2048x4_1_0_0_1_n_n : DotDims S2048x128 S128x4 S2048x4 where
  lhsContracting := [1]
  rhsContracting := [0]
  lhsNonContracting := [0]
  rhsNonContracting := [1]
  lhsBatch := []
  rhsBatch := []
  wf := dot_S2048x128_S128x4_S2048x4_1_0_0_1_n_n_wf

abbrev win0_0 : Pipeline.Window sig grid0 :=
  Pipeline.Window.ofSpec (Memref.whole main_arg0) S2048x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S9x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S6x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x5.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S2048x9.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x9 : Shape := ⟨2, ![262144, 9]⟩
abbrev S262144x6 : Shape := ⟨2, ![262144, 6]⟩
abbrev S9x256 : Shape := ⟨2, ![9, 256]⟩
abbrev S6x256 : Shape := ⟨2, ![6, 256]⟩
abbrev S256x256 : Shape := ⟨2, ![256, 256]⟩
abbrev S128x5 : Shape := ⟨2, ![128, 5]⟩
abbrev S128x4 : Shape := ⟨2, ![128, 4]⟩
abbrev S262144x256 : Shape := ⟨2, ![262144, 256]⟩
abbrev S262144x128 : Shape := ⟨2, ![262144, 128]⟩
abbrev S262144x5 : Shape := ⟨2, ![262144, 5]⟩
abbrev S262144x4 : Shape := ⟨2, ![262144, 4]⟩
abbrev S262144x1 : Shape := ⟨2, ![262144, 1]⟩
abbrev S_ : Shape := ⟨0, ![]⟩

abbrev nBuf : Space → Nat
  | .hbm => 91
  | .vmem => 0
  | .smem => 0
  | _ => 0

abbrev bufTy : (tb : Table) → Fin (tcTables nBuf tb) → BufTy
  | .hbm, ⟨0, _⟩ => ⟨S262144x9, .f32⟩
  | .hbm, ⟨1, _⟩ => ⟨S262144x6, .f32⟩
  | .hbm, ⟨2, _⟩ => ⟨S9x256, .f32⟩
  | .hbm, ⟨3, _⟩ => ⟨S6x256, .f32⟩
  | .hbm, ⟨4, _⟩ => ⟨S256x256, .f32⟩
  | .hbm, ⟨5, _⟩ => ⟨S128x5, .f32⟩
  | .hbm, ⟨6, _⟩ => ⟨S128x4, .f32⟩
  | .hbm, ⟨7, _⟩ => ⟨S262144x256, .f32⟩
  | .hbm, ⟨8, _⟩ => ⟨S262144x256, .f32⟩
  | .hbm, ⟨9, _⟩ => ⟨S262144x256, .f32⟩
  | .hbm, ⟨10, _⟩ => ⟨S262144x256, .f32⟩
  | .hbm, ⟨11, _⟩ => ⟨S262144x256, .f32⟩
  | .hbm, ⟨12, _⟩ => ⟨S262144x256, .f32⟩
  | .hbm, ⟨13, _⟩ => ⟨S262144x128, .f32⟩
  | .hbm, ⟨14, _⟩ => ⟨S262144x128, .f32⟩
  | .hbm, ⟨15, _⟩ => ⟨S262144x128, .f32⟩
  | .hbm, ⟨16, _⟩ => ⟨S262144x128, .f32⟩
  | .hbm, ⟨17, _⟩ => ⟨S262144x128, .f32⟩
  | .hbm, ⟨18, _⟩ => ⟨S262144x128, .f32⟩
  | .hbm, ⟨19, _⟩ => ⟨S262144x5, .f32⟩
  | .hbm, ⟨20, _⟩ => ⟨S262144x4, .f32⟩
  | .hbm, ⟨21, _⟩ => ⟨S262144x1, .f32⟩
  | .hbm, ⟨22, _⟩ => ⟨S262144x1, .f32⟩
  | .hbm, ⟨23, _⟩ => ⟨S262144x1, .f32⟩
  | .hbm, ⟨24, _⟩ => ⟨S262144x1, .f32⟩
  | .hbm, ⟨25, _⟩ => ⟨S262144x1, .f32⟩
  | .hbm, ⟨26, _⟩ => ⟨S262144x1, .f32⟩
  | .hbm, ⟨27, _⟩ => ⟨S262144x1, .f32⟩
  | .hbm, ⟨28, _⟩ => ⟨S262144x1, .f32⟩
  | .hbm, ⟨29, _⟩ => ⟨S262144x1, .f32⟩
  | .hbm, ⟨30, _⟩ => ⟨S_, .f32⟩
  | .hbm, ⟨31, _⟩ => ⟨S262144x1, .f32⟩
  | .hbm, ⟨32, _⟩ => ⟨S262144x1, .f32⟩
  | .hbm, ⟨33, _⟩ => ⟨S262144x1, .f32⟩
  | .hbm, ⟨34, _⟩ => ⟨S_, .f32⟩
  | .hbm, ⟨35, _⟩ => ⟨S262144x1, .f32⟩
  | .hbm, ⟨36, _⟩ => ⟨S262144x1, .f32⟩
  | .hbm, ⟨37, _⟩ => ⟨S262144x1, .f32⟩
  | .hbm, ⟨38, _⟩ => ⟨S_, .f32⟩
  | .hbm, ⟨39, _⟩ => ⟨S262144x1, .f32⟩
  | .hbm, ⟨40, _⟩ => ⟨S262144x1, .f32⟩
  | .hbm, ⟨41, _⟩ => ⟨S262144x1, .f32⟩
  | .hbm, ⟨42, _⟩ => ⟨S_, .f32⟩
  | .hbm, ⟨43, _⟩ => ⟨S262144x1, .f32⟩
  | .hbm, ⟨44, _⟩ => ⟨S262144x1, .f32⟩
  | .hbm, ⟨45, _⟩ => ⟨S262144x1, .f32⟩
  | .hbm, ⟨46, _⟩ => ⟨S_, .f32⟩
  | .hbm, ⟨47, _⟩ => ⟨S262144x1, .f32⟩
  | .hbm, ⟨48, _⟩ => ⟨S262144x1, .f32⟩
  | .hbm, ⟨49, _⟩ => ⟨S262144x1, .f32⟩
  | .hbm, ⟨50, _⟩ => ⟨S_, .f32⟩
  | .hbm, ⟨51, _⟩ => ⟨S262144x1, .f32⟩
  | .hbm, ⟨52, _⟩ => ⟨S262144x1, .f32⟩
  | .hbm, ⟨53, _⟩ => ⟨S262144x1, .f32⟩
  | .hbm, ⟨54, _⟩ => ⟨S_, .f32⟩
  | .hbm, ⟨55, _⟩ => ⟨S262144x1, .f32⟩
  | .hbm, ⟨56, _⟩ => ⟨S262144x1, .f32⟩
  | .hbm, ⟨57, _⟩ => ⟨S262144x1, .f32⟩
  | .hbm, ⟨58, _⟩ => ⟨S_, .f32⟩
  | .hbm, ⟨59, _⟩ => ⟨S262144x1, .f32⟩
  | .hbm, ⟨60, _⟩ => ⟨S262144x1, .f32⟩
  | .hbm, ⟨61, _⟩ => ⟨S262144x1, .f32⟩
  | .hbm, ⟨62, _⟩ => ⟨S_, .f32⟩
  | .hbm, ⟨63, _⟩ => ⟨S262144x1, .f32⟩
  | .hbm, ⟨64, _⟩ => ⟨S262144x1, .f32⟩
  | .hbm, ⟨65, _⟩ => ⟨S262144x1, .f32⟩
  | .hbm, ⟨66, _⟩ => ⟨S_, .f32⟩
  | .hbm, ⟨67, _⟩ => ⟨S262144x1, .f32⟩
  | .hbm, ⟨68, _⟩ => ⟨S262144x1, .f32⟩
  | .hbm, ⟨69, _⟩ => ⟨S262144x1, .f32⟩
  | .hbm, ⟨70, _⟩ => ⟨S_, .f32⟩
  | .hbm, ⟨71, _⟩ => ⟨S262144x1, .f32⟩
  | .hbm, ⟨72, _⟩ => ⟨S262144x1, .f32⟩
  | .hbm, ⟨73, _⟩ => ⟨S262144x1, .f32⟩
  | .hbm, ⟨74, _⟩ => ⟨S_, .f32⟩
  | .hbm, ⟨75, _⟩ => ⟨S262144x1, .f32⟩
  | .hbm, ⟨76, _⟩ => ⟨S262144x1, .f32⟩
  | .hbm, ⟨77, _⟩ => ⟨S262144x1, .f32⟩
  | .hbm, ⟨78, _⟩ => ⟨S_, .f32⟩
  | .hbm, ⟨79, _⟩ => ⟨S262144x1, .f32⟩
  | .hbm, ⟨80, _⟩ => ⟨S262144x1, .f32⟩
  | .hbm, ⟨81, _⟩ => ⟨S262144x1, .f32⟩
  | .hbm, ⟨82, _⟩ => ⟨S_, .f32⟩
  | .hbm, ⟨83, _⟩ => ⟨S262144x1, .f32⟩
  | .hbm, ⟨84, _⟩ => ⟨S262144x1, .f32⟩
  | .hbm, ⟨85, _⟩ => ⟨S262144x1, .f32⟩
  | .hbm, ⟨86, _⟩ => ⟨S_, .f32⟩
  | .hbm, ⟨87, _⟩ => ⟨S262144x1, .f32⟩
  | .hbm, ⟨88, _⟩ => ⟨S262144x1, .f32⟩
  | .hbm, ⟨89, _⟩ => ⟨S262144x1, .f32⟩
  | .hbm, ⟨90, _⟩ => ⟨S262144x9, .f32⟩
  | _, _ => ⟨S262144x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_cst : Ref sig .tc := ⟨.hbm, 30, rfl⟩
abbrev main_call0_v0 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call1_cst : Ref sig .tc := ⟨.hbm, 38, rfl⟩
abbrev main_call1_v0 : Ref sig .tc := ⟨.hbm, 39, rfl⟩
abbrev main_v28 : Ref sig .tc := ⟨.hbm, 40, rfl⟩
abbrev main_v29 : Ref sig .tc := ⟨.hbm, 41, rfl⟩
abbrev main_call2_cst : Ref sig .tc := ⟨.hbm, 42, rfl⟩
abbrev main_call2_v0 : Ref sig .tc := ⟨.hbm, 43, rfl⟩
abbrev main_v30 : Ref sig .tc := ⟨.hbm, 44, rfl⟩
abbrev main_v31 : Ref sig .tc := ⟨.hbm, 45, rfl⟩
abbrev main_cst_0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call3_cst : Ref sig .tc := ⟨.hbm, 50, rfl⟩
abbrev main_call3_v0 : Ref sig .tc := ⟨.hbm, 51, rfl⟩
abbrev main_v35 : Ref sig .tc := ⟨.hbm, 52, rfl⟩
abbrev main_v36 : Ref sig .tc := ⟨.hbm, 53, rfl⟩
abbrev main_call4_cst : Ref sig .tc := ⟨.hbm, 54, rfl⟩
abbrev main_call4_v0 : Ref sig .tc := ⟨.hbm, 55, rfl⟩
abbrev main_v37 : Ref sig .tc := ⟨.hbm, 56, rfl⟩
abbrev main_v38 : Ref sig .tc := ⟨.hbm, 57, rfl⟩
abbrev main_cst_1 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call5_cst : Ref sig .tc := ⟨.hbm, 62, rfl⟩
abbrev main_call5_v0 : Ref sig .tc := ⟨.hbm, 63, rfl⟩
abbrev main_v42 : Ref sig .tc := ⟨.hbm, 64, rfl⟩
abbrev main_v43 : Ref sig .tc := ⟨.hbm, 65, rfl⟩
abbrev main_call6_cst : Ref sig .tc := ⟨.hbm, 66, rfl⟩
abbrev main_call6_v0 : Ref sig .tc := ⟨.hbm, 67, rfl⟩
abbrev main_v44 : Ref sig .tc := ⟨.hbm, 68, rfl⟩
abbrev main_v45 : Ref sig .tc := ⟨.hbm, 69, rfl⟩
abbrev main_cst_2 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call7_cst : Ref sig .tc := ⟨.hbm, 74, rfl⟩
abbrev main_call7_v0 : Ref sig .tc := ⟨.hbm, 75, rfl⟩
abbrev main_v49 : Ref sig .tc := ⟨.hbm, 76, rfl⟩
abbrev main_v50 : Ref sig .tc := ⟨.hbm, 77, rfl⟩
abbrev main_call8_cst : Ref sig .tc := ⟨.hbm, 78, rfl⟩
abbrev main_call8_v0 : Ref sig .tc := ⟨.hbm, 79, rfl⟩
abbrev main_v51 : Ref sig .tc := ⟨.hbm, 80, rfl⟩
abbrev main_v52 : Ref sig .tc := ⟨.hbm, 81, rfl⟩
abbrev main_cst_3 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_call9_cst : Ref sig .tc := ⟨.hbm, 86, rfl⟩
abbrev main_call9_v0 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩

abbrev nD : Nat := 1
abbrev τ : Topo := Topo.v7x

variable {F : FTy → Type} [FloatOps F]

class Facts₀ : Prop where
  slices_S262144x256_S262144x128_0_0 : S262144x256.Slices ![0, 0] S262144x128
  slices_S262144x256_S262144x128_0_128 : S262144x256.Slices ![0, 128] S262144x128
  slices_S262144x5_S262144x1_0_0 : S262144x5.Slices ![0, 0] S262144x1
  slices_S262144x5_S262144x1_0_1 : S262144x5.Slices ![0, 1] S262144x1
  slices_S262144x5_S262144x1_0_2 : S262144x5.Slices ![0, 2] S262144x1
  slices_S262144x5_S262144x1_0_3 : S262144x5.Slices ![0, 3] S262144x1
  slices_S262144x5_S262144x1_0_4 : S262144x5.Slices ![0, 4] S262144x1
  slices_S262144x4_S262144x1_0_0 : S262144x4.Slices ![0, 0] S262144x1
  slices_S262144x4_S262144x1_0_1 : S262144x4.Slices ![0, 1] S262144x1
  slices_S262144x4_S262144x1_0_2 : S262144x4.Slices ![0, 2] S262144x1
  slices_S262144x4_S262144x1_0_3 : S262144x4.Slices ![0, 3] S262144x1
  bcast_S_S262144x1 : S_.BroadcastsInDim S262144x1 (![] : Fin 0 → Fin S262144x1.rank)
  concatenates_S262144x1_S262144x1_S262144x1_S262144x1_S262144x1_S262144x1_S262144x1_S262144x1_S262144x1_S262144x9_d1 : Shape.Concatenates [S262144x1, S262144x1, S262144x1, S262144x1, S262144x1, S262144x1, S262144x1, S262144x1, S262144x1] S262144x9 1
  dot_S262144x9_S9x256_S262144x256_1_0_0_1_n_n_wf : DotDims.WF S262144x9 S9x256 S262144x256 [1] [0] [0] [1] [] []
  dot_S262144x256_S256x256_S262144x256_1_0_0_1_n_n_wf : DotDims.WF S262144x256 S256x256 S262144x256 [1] [0] [0] [1] [] []
  dot_S262144x6_S6x256_S262144x256_1_0_0_1_n_n_wf : DotDims.WF S262144x6 S6x256 S262144x256 [1] [0] [0] [1] [] []
  dot_S262144x128_S128x5_S262144x5_1_0_0_1_n_n_wf : DotDims.WF S262144x128 S128x5 S262144x5 [1] [0] [0] [1] [] []
  dot_S262144x128_S128x4_S262144x4_1_0_0_1_n_n_wf : DotDims.WF S262144x128 S128x4 S262144x4 [1] [0] [0] [1] [] []

variable [Facts₀]

def dot_S262144x9_S9x256_S262144x256_1_0_0_1_n_n : DotDims S262144x9 S9x256 S262144x256 where
  lhsContracting := [1]
  rhsContracting := [0]
  lhsNonContracting := [0]
  rhsNonContracting := [1]
  lhsBatch := []
  rhsBatch := []
  wf := dot_S262144x9_S9x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x6_S6x256_S262144x256_1_0_0_1_n_n : DotDims S262144x6 S6x256 S262144x256 where
  lhsContracting := [1]
  rhsContracting := [0]
  lhsNonContracting := [0]
  rhsNonContracting := [1]
  lhsBatch := []
  rhsBatch := []
  wf := dot_S262144x6_S6x256_S262144x256_1_0_0_1_n_n_wf
def dot_S262144x128_S128x5_S262144x5_1_0_0_1_n_n : DotDims S262144x128 S128x5 S262144x5 where
  lhsContracting := [1]
  rhsContracting := [0]
  lhsNonContracting := [0]
  rhsNonContracting := [1]
  lhsBatch := []
  rhsBatch := []
  wf := dot_S262144x128_S128x5_S262144x5_1_0_0_1_n_n_wf
def dot_S262144x128_S128x4_S262144x4_1_0_0_1_n_n : DotDims S262144x128 S128x4 S262144x4 where
  lhsContracting := [1]
  rhsContracting := [0]
  lhsNonContracting := [0]
  rhsNonContracting := [1]
  lhsBatch := []
  rhsBatch := []
  wf := dot_S262144x128_S128x4_S262144x4_1_0_0_1_n_n_wf

class Facts : Prop extends Facts₀ where

variable [Facts]
-- ==== Proof.RowNet.lean ====
import Idealize.ShloMosaic.Lib.ValueIdx
import Idealize.ShloMosaic.PureOps.Ideal.Laws

/-!
# The network, one row at a time

Every row of the result depends on the same row of `x` and of `y` only, and on the five weight matrices. Over the
extended reals, for a row `xr : Fin 9 → EReal` of `x` and a row `yr : Fin 6 → EReal` of `y`:

* `hidX  j = tanh (Σ k, xr k · W1[k, j])`                       (256 hidden units),
* `hidXX j = tanh (Σ k, hidX k · W3[k, j])`                     (256 hidden units),
* `hidY  j = tanh (Σ k, yr k · W2[k, j])`                       (256 hidden units),
* `gateP k = hidXX k · hidY k`, `gateQ k = hidXX (128 + k) · hidY (128 + k)`     (the two halves, multiplied),
* `headP c = Σ k, gateP k · Wp[k, c]` (five heads), `headQ c = Σ k, gateQ k · Wq[k, c]` (four heads),
* `elu pos g = max pos 0 − max (−(exp g − 1)) 0`,

and the row of the result is
`(elu P0 P0, elu P1 P1, elu P1 P2, elu P1 Q0, elu P1 Q1, P3, P4, Q2, Q3)`.

`net` is the whole array: row `r` of the result is `rowOut` of row `r` of `x` and of `y`, for any number of rows.
The float words of `0` and `1` are kept as words; only `0 − a = −a` needs the value of the zero word.
-/

noncomputable section

open scoped BigOperators

namespace Cert.RowNet

open Idealize.ShloMosaic Idealize.ShloMosaic.ValueIdx

/-- An `[a, b]` matrix of extended reals. -/
abbrev Mat (a b : Nat) : Type := FVec Ideal ⟨2, ![a, b]⟩ .f32

/-- The first hidden layer of the `x` branch. -/
def hidX (W1 : Mat 9 256) (xr : Fin 9 → EReal) (j : Fin 256) : EReal :=
  Ideal.tanh (∑ k : Fin 9, xr k * W1 (ix2 k j))

/-- The second hidden layer of the `x` branch. -/
def hidXX (W1 : Mat 9 256) (W3 : Mat 256 256) (xr : Fin 9 → EReal) (j : Fin 256) : EReal :=
  Ideal.tanh (∑ k : Fin 256, hidX W1 xr k * W3 (ix2 k j))

/-- The hidden layer of the `y` branch. -/
def hidY (W2 : Mat 6 256) (yr : Fin 6 → EReal) (j : Fin 256) : EReal :=
  Ideal.tanh (∑ k : Fin 6, yr k * W2 (ix2 k j))

/-- Unit `k` of the lower halves of the two branches, multiplied. -/
def gateP (W1 : Mat 9 256) (W2 : Mat 6 256) (W3 : Mat 256 256) (xr : Fin 9 → EReal) (yr : Fin 6 → EReal)
    (k : Fin 128) : EReal :=
  hidXX W1 W3 xr ⟨k.val, by omega⟩ * hidY W2 yr ⟨k.val, by omega⟩

/-- Unit `k` of the upper halves of the two branches, multiplied. -/
def gateQ (W1 : Mat 9 256) (W2 : Mat 6 256) (W3 : Mat 256 256) (xr : Fin 9 → EReal) (yr : Fin 6 → EReal)
    (k : Fin 128) : EReal :=
  hidXX W1 W3 xr ⟨128 + k.val, by omega⟩ * hidY W2 yr ⟨128 + k.val, by omega⟩

/-- The five heads on the lower half. -/
def headP (W1 : Mat 9 256) (W2 : Mat 6 256) (W3 : Mat 256 256) (Wp : Mat 128 5) (xr : Fin 9 → EReal)
    (yr : Fin 6 → EReal) (c : Fin 5) : EReal :=
  ∑ k : Fin 128, gateP W1 W2 W3 xr yr k * Wp (ix2 k c)

/-- The four heads on the upper half. -/
def headQ (W1 : Mat 9 256) (W2 : Mat 6 256) (W3 : Mat 256 256) (Wq : Mat 128 4) (xr : Fin 9 → EReal)
    (yr : Fin 6 → EReal) (c : Fin 4) : EReal :=
  ∑ k : Fin 128, gateQ W1 W2 W3 xr yr k * Wq (ix2 k c)

/-- The hand-rolled exponential linear unit, its positive part taken of `pos` and its negative part of `g`. -/
def elu (pos g : EReal) : EReal :=
  max pos (Ideal.ofBits .f32 0x00000000#32)
    - max (-(Ideal.exp g - Ideal.ofBits .f32 0x3F800000#32)) (Ideal.ofBits .f32 0x00000000#32)

/-- The same with the negation written as a difference from zero: `0 − a = −a` on the extended reals. -/
theorem elu_zero_sub (pos g : EReal) :
    max pos (Ideal.ofBits .f32 0x00000000#32)
      - max (Ideal.ofBits .f32 0x00000000#32 - (Ideal.exp g - Ideal.ofBits .f32 0x3F800000#32))
          (Ideal.ofBits .f32 0x00000000#32) = elu pos g := by
  unfold elu
  rw [Ideal.ofBits_zero_f32, sub_eq_add_neg (0 : EReal), zero_add]

/-- One row of the result. -/
def rowOut (W1 : Mat 9 256) (W2 : Mat 6 256) (W3 : Mat 256 256) (Wp : Mat 128 5) (Wq : Mat 128 4)
    (xr : Fin 9 → EReal) (yr : Fin 6 → EReal) : Fin 9 → EReal :=
  ![elu (headP W1 W2 W3 Wp xr yr 0) (headP W1 W2 W3 Wp xr yr 0),
    elu (headP W1 W2 W3 Wp xr yr 1) (headP W1 W2 W3 Wp xr yr 1),
    elu (headP W1 W2 W3 Wp xr yr 1) (headP W1 W2 W3 Wp xr yr 2),
    elu (headP W1 W2 W3 Wp xr yr 1) (headQ W1 W2 W3 Wq xr yr 0),
    elu (headP W1 W2 W3 Wp xr yr 1) (headQ W1 W2 W3 Wq xr yr 1),
    headP W1 W2 W3 Wp xr yr 3,
    headP W1 W2 W3 Wp xr yr 4,
    headQ W1 W2 W3 Wq xr yr 2,
    headQ W1 W2 W3 Wq xr yr 3]

/-- The whole result for `N` rows: row `r` is `rowOut` of row `r` of `x` and of `y`. -/
def net {N : Nat} (x : Mat N 9) (y : Mat N 6) (W1 : Mat 9 256) (W2 : Mat 6 256) (W3 : Mat 256 256)
    (Wp : Mat 128 5) (Wq : Mat 128 4) : Mat N 9 :=
  fun i => rowOut W1 W2 W3 Wp Wq (fun k => x (ix2 (i 0) k)) (fun k => y (ix2 (i 0) k)) (i 1)

theorem net_apply {N : Nat} (x : Mat N 9) (y : Mat N 6) (W1 : Mat 9 256) (W2 : Mat 6 256) (W3 : Mat 256 256)
    (Wp : Mat 128 5) (Wq : Mat 128 4) (p : Fin N) (c : Fin 9) :
    net x y W1 W2 W3 Wp Wq (ix2 p c)
      = rowOut W1 W2 W3 Wp Wq (fun k => x (ix2 p k)) (fun k => y (ix2 p k)) c := rfl

end Cert.RowNet

end
-- ==== Proof.LibPlainMatmul.lean ====
import Idealize.ShloMosaic.Lib.ValueIdx
import Idealize.ShloMosaic.PureOps.Ideal.Laws

/-!
# A plain matrix product read at an index

The product of a left operand `[M, K]` and a right operand `[K, N]` into a zero accumulator `[M, N]` — contracting the
left operand's axis 1 with the right operand's axis 0, no batch axis — has, over the extended reals, at `(p, q)` the
element `∑ k, l[p, k] · r[k, q]`: the contraction index is its one coordinate, the left operand's index at `(p, q)`
and `k` is `(p, k)`, the right operand's `(k, q)`.

The statement comes twice: for the record of dimension numbers written out with its well-formedness proof as an
argument (`…_lit`), and for an arbitrary record whose fields are fixed by equations (each `rfl` for a literal record).
-/

noncomputable section

open scoped BigOperators

namespace Idealize.ShloMosaic.PlainMatmul

open Idealize.ShloMosaic Idealize.ShloMosaic.ValueIdx

/-- The dimension numbers of a plain product: `[M, K] · [K, N] → [M, N]`. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- The plain product into the zero accumulator, at `(p, q)`, is `∑ k, l[p, k] · r[k, q]`. -/
theorem matmul_plain_lit {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ =>
        show ((plainDims M K N wf).lhsIdx (ix2 p q) _ 0).val = p.val
        unfold DotDims.lhsIdx
        rw [dif_neg (show ¬ (0 : Fin 2) ∈ (plainDims M K N wf).lhsBatch from List.not_mem_nil),
          dif_pos (show (0 : Fin 2) ∈ (plainDims M K N wf).lhsNonContracting from List.mem_singleton.mpr rfl)]
        rfl
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ =>
        show ((plainDims M K N wf).rhsIdx (ix2 p q) _ 1).val = q.val
        unfold DotDims.rhsIdx
        rw [dif_neg (show ¬ (1 : Fin 2) ∈ (plainDims M K N wf).rhsBatch from List.not_mem_nil),
          dif_pos (show (1 : Fin 2) ∈ (plainDims M K N wf).rhsNonContracting from List.mem_singleton.mpr rfl)]
        rfl)
  rw [el, er]

/-- The same for ANY record of dimension numbers of these shapes whose fields are those of a plain product. -/
theorem matmul_plain_apply {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at hlc hrc hln hrn hlb hrb
  subst hlc hrc hln hrn hlb hrb
  exact matmul_plain_lit wf prec l r p q

end Idealize.ShloMosaic.PlainMatmul

end
-- ==== Proof.LibColumns.lean ====
import Idealize.ShloMosaic.Lib.ValueIdx
import Idealize.ShloMosaic.Lib.Pipeline.Value

/-!
# Columns of a matrix: slices of whole rows, and nine columns joined

For arrays of rank 2 with whole rows:

* `ix2_ext` — an index of rank 2 is the pair of its coordinates (stated by values).
* `colSlice_apply` — the unit-stride slice of columns `off … off + D − 1`, read at `(p, k)`, is the operand at
  `(p, off + k)`.
* `col_apply` — column `c` kept as a column `[M, 1]`, read at `(p, 0)`, is the operand at `(p, c)`.
* `concat9_apply` — nine columns `[N, 1]` joined along axis 1, read at `(r, c)`, are column `c` at `(r, 0)`.
-/

noncomputable section

namespace Idealize.ShloMosaic.Columns

open Idealize.ShloMosaic Idealize.ShloMosaic.ValueIdx

/-- A rank-2 index is determined by its two coordinates. -/
theorem ix2_ext {n0 n1 : Nat} (f : (⟨2, ![n0, n1]⟩ : Shape).Idx) (a : Fin n0) (b : Fin n1)
    (h0 : (f 0).val = a.val) (h1 : (f 1).val = b.val) : f = ix2 a b :=
  funext fun d => match d with
    | ⟨0, _⟩ => Fin.ext h0
    | ⟨1, _⟩ => Fin.ext h1

/-- A slice of whole rows, columns `off … off + D − 1`, read at `(p, k)`: the operand at `(p, off + k)`. -/
theorem colSlice_apply {α : Type} {M C D : Nat} (off : Nat) (v : (⟨2, ![M, C]⟩ : Shape).Idx → α)
    (h : (⟨2, ![M, C]⟩ : Shape).Slices ![0, off] ⟨2, ![M, D]⟩) (p : Fin M) (k : Fin D) (hk : off + k.val < C) :
    extractStridedSlice ⟨2, ![M, D]⟩ ![0, off] v h (ix2 p k) = v (ix2 p ⟨off + k.val, hk⟩) := by
  refine extractStridedSlice_apply _ v h _ _ fun a => ?_
  match a with
  | ⟨0, _⟩ => show p.val = 0 + p.val; omega
  | ⟨1, _⟩ => show off + k.val = off + k.val; rfl

/-- Column `c` of whole rows, kept as a column `[M, 1]`, read at `(p, 0)`: the operand at `(p, c)`. -/
theorem col_apply {α : Type} {M C : Nat} (c : Fin C) (v : (⟨2, ![M, C]⟩ : Shape).Idx → α)
    (h : (⟨2, ![M, C]⟩ : Shape).Slices ![0, c.val] ⟨2, ![M, 1]⟩) (p : Fin M) (q : Fin 1) :
    extractStridedSlice ⟨2, ![M, 1]⟩ ![0, c.val] v h (ix2 p q) = v (ix2 p c) := by
  refine extractStridedSlice_apply _ v h _ _ fun a => ?_
  match a with
  | ⟨0, _⟩ => show p.val = 0 + p.val; omega
  | ⟨1, _⟩ => show c.val = c.val + q.val; omega

/-- Nine columns `[N, 1]` joined along axis 1, read at `(r, c)`: column `c` at `(r, 0)`. -/
theorem concat9_apply {α : Type} {N : Nat}
    (u0 u1 u2 u3 u4 u5 u6 u7 u8 : (⟨2, ![N, 1]⟩ : Shape).Idx → α)
    (h : Shape.Concatenates (([⟨⟨2, ![N, 1]⟩, u0⟩, ⟨⟨2, ![N, 1]⟩, u1⟩, ⟨⟨2, ![N, 1]⟩, u2⟩, ⟨⟨2, ![N, 1]⟩, u3⟩,
      ⟨⟨2, ![N, 1]⟩, u4⟩, ⟨⟨2, ![N, 1]⟩, u5⟩, ⟨⟨2, ![N, 1]⟩, u6⟩, ⟨⟨2, ![N, 1]⟩, u7⟩, ⟨⟨2, ![N, 1]⟩, u8⟩] :
        List ((s : Shape) × (s.Idx → α))).map (·.1)) ⟨2, ![N, 9]⟩ 1)
    (r : Fin N) (c : Fin 9) :
    concatenate ⟨2, ![N, 9]⟩ 1 [⟨⟨2, ![N, 1]⟩, u0⟩, ⟨⟨2, ![N, 1]⟩, u1⟩, ⟨⟨2, ![N, 1]⟩, u2⟩, ⟨⟨2, ![N, 1]⟩, u3⟩,
      ⟨⟨2, ![N, 1]⟩, u4⟩, ⟨⟨2, ![N, 1]⟩, u5⟩, ⟨⟨2, ![N, 1]⟩, u6⟩, ⟨⟨2, ![N, 1]⟩, u7⟩, ⟨⟨2, ![N, 1]⟩, u8⟩] h (ix2 r c)
      = (![u0, u1, u2, u3, u4, u5, u6, u7, u8] c) (ix2 r (0 : Fin 1)) := by
  have hi : ∀ (c : Fin 9) (b : Fin 2), b.cast (rfl : (2 : Nat) = 2) ≠ (1 : Fin 2) →
      ((ix2 r (0 : Fin 1) : (⟨2, ![N, 1]⟩ : Shape).Idx) b).val
        = ((ix2 r c : (⟨2, ![N, 9]⟩ : Shape).Idx) (b.cast (rfl : (2 : Nat) = 2))).val := fun c b hb => by
    match b with
    | ⟨0, _⟩ => rfl
    | ⟨1, _⟩ => exact absurd rfl hb
  match c with
  | ⟨0, _⟩ => exact concatenate_apply_piece 1 _ h _ 0 (by simp) _ u0 rfl rfl 0 rfl (ix2 r 0) (hi _) rfl
  | ⟨1, _⟩ => exact concatenate_apply_piece 1 _ h _ 1 (by simp) _ u1 rfl rfl 1 rfl (ix2 r 0) (hi _) rfl
  | ⟨2, _⟩ => exact concatenate_apply_piece 1 _ h _ 2 (by simp) _ u2 rfl rfl 2 rfl (ix2 r 0) (hi _) rfl
  | ⟨3, _⟩ => exact concatenate_apply_piece 1 _ h _ 3 (by simp) _ u3 rfl rfl 3 rfl (ix2 r 0) (hi _) rfl
  | ⟨4, _⟩ => exact concatenate_apply_piece 1 _ h _ 4 (by simp) _ u4 rfl rfl 4 rfl (ix2 r 0) (hi _) rfl
  | ⟨5, _⟩ => exact concatenate_apply_piece 1 _ h _ 5 (by simp) _ u5 rfl rfl 5 rfl (ix2 r 0) (hi _) rfl
  | ⟨6, _⟩ => exact concatenate_apply_piece 1 _ h _ 6 (by simp) _ u6 rfl rfl 6 rfl (ix2 r 0) (hi _) rfl
  | ⟨7, _⟩ => exact concatenate_apply_piece 1 _ h _ 7 (by simp) _ u7 rfl rfl 7 rfl (ix2 r 0) (hi _) rfl
  | ⟨8, _⟩ => exact concatenate_apply_piece 1 _ h _ 8 (by simp) _ u8 rfl rfl 8 rfl (ix2 r 0) (hi _) rfl

end Idealize.ShloMosaic.Columns

end
-- ==== Proof.KernelBlock.lean ====
import proofs.«111007_j76038101008853_1_alg».proof.Proof.Gen.KernelIdeal.Frame
import proofs.«111007_j76038101008853_1_alg».proof.Proof.RowNet
import proofs.«111007_j76038101008853_1_alg».proof.Proof.LibPlainMatmul
import proofs.«111007_j76038101008853_1_alg».proof.Proof.LibColumns
import Idealize.ShloMosaic.Lib.Pipeline.Value
import Idealize.ShloMosaic.Lib.ValueIdx

/-!
# One block of the kernel is the network on the block's rows

The body of the kernel works on a block of 2048 rows of `x` and of `y` and on the five weight matrices whole. Its
five matrix products into zero accumulators are plain sums over the shared coordinate, its changes of float format are
the identity over the extended reals, its slices of the two hidden layers are their lower and upper halves, and its
nine stores write the nine columns of the block. So, read at `(p, c)`, what the body leaves in its output block is
`RowNet.rowOut` of row `p` of the two input blocks at column `c`: the block is `RowNet.net` on 2048 rows.
-/

noncomputable section

open scoped BigOperators

namespace Cert.KernelIdeal.Block

open Cert.KernelIdeal Cert.KernelIdeal.Gen Idealize.ShloMosaic Idealize.ShloMosaic.ValueIdx Cert.RowNet
open Idealize.ShloMosaic.Columns

/-- The second hidden layer of the `x` branch on the block, at `(p, j)`. -/
theorem pay7_apply (v0 : Vec Ideal S2048x9 .f32) (v4 : Vec Ideal S9x256 .f32) (v8 : Vec Ideal S256x256 .f32)
    (p : Fin 2048) (j : Fin 256) :
    k0_pay7 v0 v4 v8 (ix2 p j) = hidXX v4 v8 (fun k => v0 (ix2 p k)) j := by
  unfold k0_pay7 hidXX
  try dsimp only
  show Ideal.tanh _ = Ideal.tanh _
  refine congrArg Ideal.tanh ?_
  refine (PlainMatmul.matmul_plain_apply dot_S2048x256_S256x256_S2048x256_1_0_0_1_n_n rfl rfl rfl rfl rfl rfl
    none _ _ p j).trans ?_
  refine Finset.sum_congr rfl fun k _ => ?_
  refine congrArg (· * v8 (ix2 k j)) ?_
  unfold hidX
  show Ideal.tanh _ = Ideal.tanh _
  refine congrArg Ideal.tanh ?_
  exact PlainMatmul.matmul_plain_apply dot_S2048x9_S9x256_S2048x256_1_0_0_1_n_n rfl rfl rfl rfl rfl rfl none _ _ p k

/-- The hidden layer of the `y` branch on the block, at `(p, j)`. -/
theorem pay8_apply (v2 : Vec Ideal S2048x6 .f32) (v6 : Vec Ideal S6x256 .f32) (p : Fin 2048) (j : Fin 256) :
    k0_pay8 v2 v6 (ix2 p j) = hidY v6 (fun k => v2 (ix2 p k)) j := by
  unfold k0_pay8 hidY
  try dsimp only
  show Ideal.tanh _ = Ideal.tanh _
  refine congrArg Ideal.tanh ?_
  exact PlainMatmul.matmul_plain_apply dot_S2048x6_S6x256_S2048x256_1_0_0_1_n_n rfl rfl rfl rfl rfl rfl none _ _ p j

/-- The five heads on the lower half, on the block, at `(p, c)`. -/
theorem pay9_apply (v0 : Vec Ideal S2048x9 .f32) (v2 : Vec Ideal S2048x6 .f32) (v4 : Vec Ideal S9x256 .f32)
    (v6 : Vec Ideal S6x256 .f32) (v8 : Vec Ideal S256x256 .f32) (v10 : Vec Ideal S128x5 .f32)
    (p : Fin 2048) (c : Fin 5) :
    k0_pay9 v0 v2 v4 v6 v8 v10 (ix2 p c)
      = headP v4 v6 v8 v10 (fun k => v0 (ix2 p k)) (fun k => v2 (ix2 p k)) c := by
  unfold k0_pay9 headP
  try dsimp only
  refine (PlainMatmul.matmul_plain_apply dot_S2048x128_S128x5_S2048x5_1_0_0_1_n_n rfl rfl rfl rfl rfl rfl
    none _ _ p c).trans ?_
  refine Finset.sum_congr rfl fun k _ => ?_
  refine congrArg (· * v10 (ix2 k c)) ?_
  unfold gateP
  show (_ : EReal) * (_ : EReal) = (_ : EReal) * (_ : EReal)
  refine congr (congrArg _ ?_) ?_
  · exact (colSlice_apply 0 (k0_pay7 v0 v4 v8) _ p k (by omega)).trans
      ((congrArg (k0_pay7 v0 v4 v8) (congrArg (ix2 p) (Fin.ext (by show 0 + k.val = k.val; omega)))).trans
        (pay7_apply v0 v4 v8 p _))
  · exact (colSlice_apply 0 (k0_pay8 v2 v6) _ p k (by omega)).trans
      ((congrArg (k0_pay8 v2 v6) (congrArg (ix2 p) (Fin.ext (by show 0 + k.val = k.val; omega)))).trans
        (pay8_apply v2 v6 p _))

/-- The four heads on the upper half, on the block, at `(p, c)`. -/
theorem pay10_apply (v0 : Vec Ideal S2048x9 .f32) (v2 : Vec Ideal S2048x6 .f32) (v4 : Vec Ideal S9x256 .f32)
    (v6 : Vec Ideal S6x256 .f32) (v8 : Vec Ideal S256x256 .f32) (v12 : Vec Ideal S128x4 .f32)
    (p : Fin 2048) (c : Fin 4) :
    k0_pay10 v0 v2 v4 v6 v8 v12 (ix2 p c)
      = headQ v4 v6 v8 v12 (fun k => v0 (ix2 p k)) (fun k => v2 (ix2 p k)) c := by
  unfold k0_pay10 headQ
  try dsimp only
  refine (PlainMatmul.matmul_plain_apply dot_S2048x128_S128x4_S2048x4_1_0_0_1_n_n rfl rfl rfl rfl rfl rfl
    none _ _ p c).trans ?_
  refine Finset.sum_congr rfl fun k _ => ?_
  refine congrArg (· * v12 (ix2 k c)) ?_
  unfold gateQ
  show (_ : EReal) * (_ : EReal) = (_ : EReal) * (_ : EReal)
  refine congr (congrArg _ ?_) ?_
  · exact (colSlice_apply 128 (k0_pay7 v0 v4 v8) _ p k (by omega)).trans (pay7_apply v0 v4 v8 p _)
  · exact (colSlice_apply 128 (k0_pay8 v2 v6) _ p k (by omega)).trans (pay8_apply v2 v6 p _)

section Columns

variable (v0 : Vec Ideal S2048x9 .f32) (v2 : Vec Ideal S2048x6 .f32) (v4 : Vec Ideal S9x256 .f32)
  (v6 : Vec Ideal S6x256 .f32) (v8 : Vec Ideal S256x256 .f32) (v10 : Vec Ideal S128x5 .f32)
  (v12 : Vec Ideal S128x4 .f32)

/-- The columns of the two stacks of heads that the body slices out. -/
theorem pay11_apply (p : Fin 2048) (q : Fin 1) : k0_pay11 v0 v2 v4 v6 v8 v10 (ix2 p q)
    = headP v4 v6 v8 v10 (fun k => v0 (ix2 p k)) (fun k => v2 (ix2 p k)) 0 := by
  unfold k0_pay11
  exact (col_apply (0 : Fin 5) _ _ p q).trans (pay9_apply v0 v2 v4 v6 v8 v10 p 0)
theorem pay12_apply (p : Fin 2048) (q : Fin 1) : k0_pay12 v0 v2 v4 v6 v8 v10 (ix2 p q)
    = headP v4 v6 v8 v10 (fun k => v0 (ix2 p k)) (fun k => v2 (ix2 p k)) 1 := by
  unfold k0_pay12
  exact (col_apply (1 : Fin 5) _ _ p q).trans (pay9_apply v0 v2 v4 v6 v8 v10 p 1)
theorem pay13_apply (p : Fin 2048) (q : Fin 1) : k0_pay13 v0 v2 v4 v6 v8 v10 (ix2 p q)
    = headP v4 v6 v8 v10 (fun k => v0 (ix2 p k)) (fun k => v2 (ix2 p k)) 2 := by
  unfold k0_pay13
  exact (col_apply (2 : Fin 5) _ _ p q).trans (pay9_apply v0 v2 v4 v6 v8 v10 p 2)
theorem pay14_apply (p : Fin 2048) (q : Fin 1) : k0_pay14 v0 v2 v4 v6 v8 v12 (ix2 p q)
    = headQ v4 v6 v8 v12 (fun k => v0 (ix2 p k)) (fun k => v2 (ix2 p k)) 0 := by
  unfold k0_pay14
  exact (col_apply (0 : Fin 4) _ _ p q).trans (pay10_apply v0 v2 v4 v6 v8 v12 p 0)
theorem pay15_apply (p : Fin 2048) (q : Fin 1) : k0_pay15 v0 v2 v4 v6 v8 v12 (ix2 p q)
    = headQ v4 v6 v8 v12 (fun k => v0 (ix2 p k)) (fun k => v2 (ix2 p k)) 1 := by
  unfold k0_pay15
  exact (col_apply (1 : Fin 4) _ _ p q).trans (pay10_apply v0 v2 v4 v6 v8 v12 p 1)

/-- The elementwise tails, at an index: the exponential linear unit with `0 − a` for `−a`. -/
theorem pay18_apply (v37 v38 : FVec Ideal S2048x1 .f32) (i : S2048x1.Idx) :
    k0_pay18 v37 v38 i = v37 i - max (Ideal.ofBits .f32 0x00000000#32 - (v38 i - Ideal.ofBits .f32 0x3F800000#32))
      (Ideal.ofBits .f32 0x00000000#32) := rfl
theorem pay16_apply (i : S2048x1.Idx) : k0_pay16 v0 v2 v4 v6 v8 v10 i
    = max (k0_pay11 v0 v2 v4 v6 v8 v10 i) (Ideal.ofBits .f32 0x00000000#32) := rfl
theorem pay17_apply (i : S2048x1.Idx) : k0_pay17 v0 v2 v4 v6 v8 v10 i
    = Ideal.exp (k0_pay11 v0 v2 v4 v6 v8 v10 i) := rfl
theorem pay19_apply (v32 : FVec Ideal S2048x1 .f32) (i : S2048x1.Idx) :
    k0_pay19 v32 i = max (v32 i) (Ideal.ofBits .f32 0x00000000#32)
      - max (Ideal.ofBits .f32 0x00000000#32 - (Ideal.exp (v32 i) - Ideal.ofBits .f32 0x3F800000#32))
        (Ideal.ofBits .f32 0x00000000#32) := rfl
theorem pay20_apply (v32 v33 : FVec Ideal S2048x1 .f32) (i : S2048x1.Idx) :
    k0_pay20 v32 v33 i = max (v32 i) (Ideal.ofBits .f32 0x00000000#32)
      - max (Ideal.ofBits .f32 0x00000000#32 - (Ideal.exp (v33 i) - Ideal.ofBits .f32 0x3F800000#32))
        (Ideal.ofBits .f32 0x00000000#32) := rfl
theorem pay1_apply (v32 v34 : FVec Ideal S2048x1 .f32) (i : S2048x1.Idx) :
    k0_pay1 (k0_pay21 v32) (k0_pay22 v34) i = max (v32 i) (Ideal.ofBits .f32 0x00000000#32)
      - max (Ideal.ofBits .f32 0x00000000#32 - (Ideal.exp (v34 i) - Ideal.ofBits .f32 0x3F800000#32))
        (Ideal.ofBits .f32 0x00000000#32) := rfl
theorem pay2_apply (v32 v35 : FVec Ideal S2048x1 .f32) (i : S2048x1.Idx) :
    k0_pay2 v32 v35 i = max (v32 i) (Ideal.ofBits .f32 0x00000000#32)
      - max (Ideal.ofBits .f32 0x00000000#32 - (Ideal.exp (v35 i) - Ideal.ofBits .f32 0x3F800000#32))
        (Ideal.ofBits .f32 0x00000000#32) := rfl

/-- What the nine stores hold, at row `p`: the nine entries of `rowOut`. -/
theorem col0 (p : Fin 2048) (q : Fin 1) :
    k0_pay18 (k0_pay16 v0 v2 v4 v6 v8 v10) (k0_pay17 v0 v2 v4 v6 v8 v10) (ix2 p q)
      = rowOut v4 v6 v8 v10 v12 (fun k => v0 (ix2 p k)) (fun k => v2 (ix2 p k)) 0 := by
  rw [pay18_apply, pay16_apply, pay17_apply, pay11_apply]
  exact elu_zero_sub _ _
theorem col1 (p : Fin 2048) (q : Fin 1) :
    k0_pay19 (k0_pay12 v0 v2 v4 v6 v8 v10) (ix2 p q)
      = rowOut v4 v6 v8 v10 v12 (fun k => v0 (ix2 p k)) (fun k => v2 (ix2 p k)) 1 := by
  rw [pay19_apply, pay12_apply]
  exact elu_zero_sub _ _
theorem col2 (p : Fin 2048) (q : Fin 1) :
    k0_pay20 (k0_pay12 v0 v2 v4 v6 v8 v10) (k0_pay13 v0 v2 v4 v6 v8 v10) (ix2 p q)
      = rowOut v4 v6 v8 v10 v12 (fun k => v0 (ix2 p k)) (fun k => v2 (ix2 p k)) 2 := by
  rw [pay20_apply, pay12_apply, pay13_apply]
  exact elu_zero_sub _ _
theorem col3 (p : Fin 2048) (q : Fin 1) :
    k0_pay1 (k0_pay21 (k0_pay12 v0 v2 v4 v6 v8 v10)) (k0_pay22 (k0_pay14 v0 v2 v4 v6 v8 v12)) (ix2 p q)
      = rowOut v4 v6 v8 v10 v12 (fun k => v0 (ix2 p k)) (fun k => v2 (ix2 p k)) 3 := by
  rw [pay1_apply, pay12_apply, pay14_apply]
  exact elu_zero_sub _ _
theorem col4 (p : Fin 2048) (q : Fin 1) :
    k0_pay2 (k0_pay12 v0 v2 v4 v6 v8 v10) (k0_pay15 v0 v2 v4 v6 v8 v12) (ix2 p q)
      = rowOut v4 v6 v8 v10 v12 (fun k => v0 (ix2 p k)) (fun k => v2 (ix2 p k)) 4 := by
  rw [pay2_apply, pay12_apply, pay15_apply]
  exact elu_zero_sub _ _
theorem col5 (p : Fin 2048) (q : Fin 1) :
    k0_pay3 (k0_pay9 v0 v2 v4 v6 v8 v10) (ix2 p q)
      = rowOut v4 v6 v8 v10 v12 (fun k => v0 (ix2 p k)) (fun k => v2 (ix2 p k)) 5 := by
  unfold k0_pay3
  exact (col_apply (3 : Fin 5) _ _ p q).trans (pay9_apply v0 v2 v4 v6 v8 v10 p 3)
theorem col6 (p : Fin 2048) (q : Fin 1) :
    k0_pay4 (k0_pay9 v0 v2 v4 v6 v8 v10) (ix2 p q)
      = rowOut v4 v6 v8 v10 v12 (fun k => v0 (ix2 p k)) (fun k => v2 (ix2 p k)) 6 := by
  unfold k0_pay4
  exact (col_apply (4 : Fin 5) _ _ p q).trans (pay9_apply v0 v2 v4 v6 v8 v10 p 4)
theorem col7 (p : Fin 2048) (q : Fin 1) :
    k0_pay5 (k0_pay10 v0 v2 v4 v6 v8 v12) (ix2 p q)
      = rowOut v4 v6 v8 v10 v12 (fun k => v0 (ix2 p k)) (fun k => v2 (ix2 p k)) 7 := by
  unfold k0_pay5
  exact (col_apply (2 : Fin 4) _ _ p q).trans (pay10_apply v0 v2 v4 v6 v8 v12 p 2)
theorem col8 (p : Fin 2048) (q : Fin 1) :
    k0_pay6 (k0_pay10 v0 v2 v4 v6 v8 v12) (ix2 p q)
      = rowOut v4 v6 v8 v10 v12 (fun k => v0 (ix2 p k)) (fun k => v2 (ix2 p k)) 8 := by
  unfold k0_pay6
  exact (col_apply (3 : Fin 4) _ _ p q).trans (pay10_apply v0 v2 v4 v6 v8 v12 p 3)

end Columns

/-- Where the rectangle of column `c` of the block puts its element `(p, 0)`: at `(p, c)`. -/
theorem colRect_emb (c : Fin 9) (inb : ∀ a, (![0, c.val] : Fin 2 → Nat) a + S2048x1.size a ≤ S2048x9.size a)
    (p : Fin 2048) (q : Fin 1) :
    (Rect.unit (s := S2048x9) ![0, c.val] S2048x1.size inb).emb (ix2 p q) = ix2 p c :=
  funext fun a => Fin.ext (by
    match a with
    | ⟨0, _⟩ => show 0 + 1 * p.val = p.val; omega
    | ⟨1, _⟩ => show c.val + 1 * q.val = c.val; omega)

theorem hz2 : (![0, 0] : Fin 2 → Nat) = fun _ => 0 := funext fun a => by fin_cases a <;> rfl

/-- THE BLOCK: what the body leaves in its output block is the network on the block's 2048 rows. -/
theorem block_eq (x0 : Vec Ideal S2048x9 .f32) (x1 : Vec Ideal S2048x6 .f32) (x2 : Vec Ideal S9x256 .f32)
    (x3 : Vec Ideal S6x256 .f32) (x4 : Vec Ideal S256x256 .f32) (x5 : Vec Ideal S128x5 .f32)
    (x6 : Vec Ideal S128x4 .f32) :
    out0_7 x0 x1 x2 x3 x4 x5 x6 = net (N := 2048) x0 x1 x2 x3 x4 x5 x6 := by
  funext y
  unfold out0_7
  simp only [View.ld_unit_zero (S := S2048x9) hz2, View.ld_unit_zero (S := S2048x6) hz2,
    View.ld_unit_zero (S := S9x256) hz2, View.ld_unit_zero (S := S6x256) hz2, View.ld_unit_zero (S := S256x256) hz2,
    View.ld_unit_zero (S := S128x5) hz2, View.ld_unit_zero (S := S128x4) hz2]
  refine View.canon_apply_of_pieces (Val := Elt Ideal) (S := S2048x9) (e := .f32) (net (N := 2048) x0 x1 x2 x3 x4 x5 x6) _ ?_ y (cover0_7 _ _ _ _ _ _ _ _ _ y)
  intro pc hpc
  simp only [List.mem_cons, List.not_mem_nil, or_false] at hpc
  rcases hpc with rfl | rfl | rfl | rfl | rfl | rfl | rfl | rfl | rfl
  all_goals
    intro x
    obtain ⟨p, q, rfl⟩ : ∃ (p : Fin 2048) (q : Fin 1), x = ix2 p q := ⟨x 0, x 1, eq_ix2 x⟩
  · exact (col8 x0 x1 x2 x3 x4 x5 x6 p q).trans ((net_apply x0 x1 x2 x3 x4 x5 x6 p 8).symm.trans
      (congrArg (net (N := 2048) x0 x1 x2 x3 x4 x5 x6) (colRect_emb 8 inb_S2048x9_S2048x1_0_8 p q).symm))
  · exact (col7 x0 x1 x2 x3 x4 x5 x6 p q).trans ((net_apply x0 x1 x2 x3 x4 x5 x6 p 7).symm.trans
      (congrArg (net (N := 2048) x0 x1 x2 x3 x4 x5 x6) (colRect_emb 7 inb_S2048x9_S2048x1_0_7 p q).symm))
  · exact (col6 x0 x1 x2 x3 x4 x5 x6 p q).trans ((net_apply x0 x1 x2 x3 x4 x5 x6 p 6).symm.trans
      (congrArg (net (N := 2048) x0 x1 x2 x3 x4 x5 x6) (colRect_emb 6 inb_S2048x9_S2048x1_0_6 p q).symm))
  · exact (col5 x0 x1 x2 x3 x4 x5 x6 p q).trans ((net_apply x0 x1 x2 x3 x4 x5 x6 p 5).symm.trans
      (congrArg (net (N := 2048) x0 x1 x2 x3 x4 x5 x6) (colRect_emb 5 inb_S2048x9_S2048x1_0_5 p q).symm))
  · exact (col4 x0 x1 x2 x3 x4 x5 x6 p q).trans ((net_apply x0 x1 x2 x3 x4 x5 x6 p 4).symm.trans
      (congrArg (net (N := 2048) x0 x1 x2 x3 x4 x5 x6) (colRect_emb 4 inb_S2048x9_S2048x1_0_4 p q).symm))
  · exact (col3 x0 x1 x2 x3 x4 x5 x6 p q).trans ((net_apply x0 x1 x2 x3 x4 x5 x6 p 3).symm.trans
      (congrArg (net (N := 2048) x0 x1 x2 x3 x4 x5 x6) (colRect_emb 3 inb_S2048x9_S2048x1_0_3 p q).symm))
  · exact (col2 x0 x1 x2 x3 x4 x5 x6 p q).trans ((net_apply x0 x1 x2 x3 x4 x5 x6 p 2).symm.trans
      (congrArg (net (N := 2048) x0 x1 x2 x3 x4 x5 x6) (colRect_emb 2 inb_S2048x9_S2048x1_0_2 p q).symm))
  · exact (col1 x0 x1 x2 x3 x4 x5 x6 p q).trans ((net_apply x0 x1 x2 x3 x4 x5 x6 p 1).symm.trans
      (congrArg (net (N := 2048) x0 x1 x2 x3 x4 x5 x6) (colRect_emb 1 inb_S2048x9_S2048x1_0_1 p q).symm))
  · exact (col0 x0 x1 x2 x3 x4 x5 x6 p q).trans ((net_apply x0 x1 x2 x3 x4 x5 x6 p 0).symm.trans
      (congrArg (net (N := 2048) x0 x1 x2 x3 x4 x5 x6) (colRect_emb 0 inb_S2048x9_S2048x1_0_0 p q).symm))

end Cert.KernelIdeal.Block

end
-- ==== Proof.KernelArray.lean ====
import proofs.«111007_j76038101008853_1_alg».proof.Proof.Gen.KernelIdeal.Value
import proofs.«111007_j76038101008853_1_alg».proof.Proof.KernelBlock
import Idealize.ShloMosaic.Lib.Pipeline.Value

/-!
# From the kernel's blocks to its result array

The grid has 128 points. Point `t` works on rows `2048 t … 2048 t + 2047` of `x` and of `y` (block index `(t, 0)`), on the
five weight matrices whole (block index `(0, 0)`), and writes rows `2048 t … 2048 t + 2047` of the result (block index
`(t, 0)`). Because each row of the network depends on the same row of `x` and `y` only, what point `t` writes back is
block `t` of the network on all 262144 rows; the 128 blocks cover the result array (row `r` is in block `r / 2048`), so
the array ends holding the network of the argument arrays.
-/

noncomputable section

namespace Cert.KernelIdeal.Whole

open Cert.KernelIdeal Cert.KernelIdeal.Gen Idealize.ShloMosaic Idealize.ShloMosaic.TcCoe Idealize.SL.Sem
open Idealize.ShloMosaic.ValueIdx Cert.RowNet
open Idealize.ShloMosaic.Pipeline (Dat)

variable (m : (ℓ : Loc nD τ sig) → Buf (Elt Ideal) ℓ) (ρ : Dev nD → PrngReg)

/-- The block indices of the eight windows, decided over the 128 grid points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The result array's contents after the run: the network of the argument arrays as the region finds them. -/
abbrev G (c : Dev nD) : Buf (Elt Ideal) ((c : Thread nD τ).loc main_v0) :=
  net (N := 262144) (V m c main_arg0) (V m c main_arg1) (V m c main_arg2) (V m c main_arg3) (V m c main_arg4) (V m c main_arg5) (V m c main_arg6)

/-- Equal weights, equal rows and equal columns give equal entries of a row of the network. -/
theorem rowOut_congr {W1 W1' : Mat 9 256} {W2 W2' : Mat 6 256} {W3 W3' : Mat 256 256} {Wp Wp' : Mat 128 5}
    {Wq Wq' : Mat 128 4} {xr xr' : Fin 9 → EReal} {yr yr' : Fin 6 → EReal} {col col' : Fin 9}
    (h1 : W1 = W1') (h2 : W2 = W2') (h3 : W3 = W3') (hp : Wp = Wp') (hq : Wq = Wq') (hx : xr = xr') (hy : yr = yr')
    (hc : col = col') : rowOut W1 W2 W3 Wp Wq xr yr col = rowOut W1' W2' W3' Wp' Wq' xr' yr' col' := by
  subst h1 h2 h3 hp hq hx hy hc; rfl

/-! ## The weight windows stage their whole arrays at every point -/

theorem iblk2_whole (c : Dev nD) (t : Fin cfg0.N) :
    (iblk m c 2 t : Vec Ideal S9x256 .f32) = V m c main_arg2 := by
  obtain ⟨-, -, -, -, h20, h21, h30, h31, h40, h41, h50, h51, h60, h61, -, -⟩ := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 9 + 1 * (y 0).val = (y 0).val; rw [h20]; omega
  | ⟨1, _⟩ => show win0_2.index t (1 : Fin 2) * 256 + 1 * (y 1).val = (y 1).val; rw [h21]; omega

theorem iblk3_whole (c : Dev nD) (t : Fin cfg0.N) :
    (iblk m c 3 t : Vec Ideal S6x256 .f32) = V m c main_arg3 := by
  obtain ⟨-, -, -, -, h20, h21, h30, h31, h40, h41, h50, h51, h60, h61, -, -⟩ := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 6 + 1 * (y 0).val = (y 0).val; rw [h30]; omega
  | ⟨1, _⟩ => show win0_3.index t (1 : Fin 2) * 256 + 1 * (y 1).val = (y 1).val; rw [h31]; omega

theorem iblk4_whole (c : Dev nD) (t : Fin cfg0.N) :
    (iblk m c 4 t : Vec Ideal S256x256 .f32) = V m c main_arg4 := by
  obtain ⟨-, -, -, -, h20, h21, h30, h31, h40, h41, h50, h51, h60, h61, -, -⟩ := idx_facts t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 256 + 1 * (y 0).val = (y 0).val; rw [h40]; omega
  | ⟨1, _⟩ => show win0_4.index t (1 : Fin 2) * 256 + 1 * (y 1).val = (y 1).val; rw [h41]; omega

theorem iblk5_whole (c : Dev nD) (t : Fin cfg0.N) :
    (iblk m c 5 t : Vec Ideal S128x5 .f32) = V m c main_arg5 := by
  obtain ⟨-, -, -, -, h20, h21, h30, h31, h40, h41, h50, h51, h60, h61, -, -⟩ := idx_facts t
  funext y
  show V m c main_arg5 (((cfg0.win 5).blk t).view.emb y) = V m c main_arg5 y
  refine congrArg (V m c main_arg5) (funext fun a => Fin.ext ?_)
  match a with
  | ⟨0, _⟩ => show win0_5.index t (0 : Fin 2) * 128 + 1 * (y 0).val = (y 0).val; rw [h50]; omega
  | ⟨1, _⟩ => show win0_5.index t (1 : Fin 2) * 5 + 1 * (y 1).val = (y 1).val; rw [h51]; omega

theorem iblk6_whole (c : Dev nD) (t : Fin cfg0.N) :
    (iblk m c 6 t : Vec Ideal S128x4 .f32) = V m c main_arg6 := by
  obtain ⟨-, -, -, -, h20, h21, h30, h31, h40, h41, h50, h51, h60, h61, -, -⟩ := idx_facts t
  funext y
  show V m c main_arg6 (((cfg0.win 6).blk t).view.emb y) = V m c main_arg6 y
  refine congrArg (V m c main_arg6) (funext fun a => Fin.ext ?_)
  match a with
  | ⟨0, _⟩ => show win0_6.index t (0 : Fin 2) * 128 + 1 * (y 0).val = (y 0).val; rw [h60]; omega
  | ⟨1, _⟩ => show win0_6.index t (1 : Fin 2) * 4 + 1 * (y 1).val = (y 1).val; rw [h61]; omega

/-! ## What a point writes back -/

/-- WHAT POINT `t` WRITES BACK is block `t` of the network of the argument arrays. -/
theorem flushed_eq (c : Dev nD) (t : Fin cfg0.N) :
    (dats m 0 c).flushed 7 t = ((cfg0.win 7).blk t).view.read (Elt Ideal) (G m c) := by
  rw [Cert.KernelIdeal.Value.flushed7, Cert.KernelIdeal.Block.block_eq]
  obtain ⟨h00, h01, h10, h11, -, -, -, -, -, -, -, -, -, -, h70, h71⟩ := idx_facts t
  funext j
  show net (N := 2048) (iblk m c 0 t) (iblk m c 1 t) (iblk m c 2 t) (iblk m c 3 t) (iblk m c 4 t) (iblk m c 5 t) (iblk m c 6 t) j
    = net (N := 262144) (V m c main_arg0) (V m c main_arg1) (V m c main_arg2) (V m c main_arg3) (V m c main_arg4) (V m c main_arg5) (V m c main_arg6) (((cfg0.win 7).blk t).view.emb j)
  obtain ⟨p, q, rfl⟩ : ∃ (p : Fin 2048) (q : Fin 9), j = ix2 p q := ⟨j 0, j 1, eq_ix2 j⟩
  have hr : ((((cfg0.win 7).blk t).view.emb (ix2 p q)) 0).val = t.val * 2048 + p.val := by
    show win0_7.index t (0 : Fin 2) * 2048 + 1 * p.val = _; rw [h70]; omega
  have hq : ((((cfg0.win 7).blk t).view.emb (ix2 p q)) 1).val = q.val := by
    show win0_7.index t (1 : Fin 2) * 9 + 1 * q.val = _; rw [h71]; omega
  show rowOut _ _ _ _ _ _ _ _ = rowOut _ _ _ _ _ _ _ _
  refine rowOut_congr (iblk2_whole m c t) (iblk3_whole m c t) (iblk4_whole m c t) (iblk5_whole m c t)
    (iblk6_whole m c t) (funext fun k => ?_) (funext fun k => ?_) (Fin.ext hq.symm)
  · show V m c main_arg0 (((cfg0.win 0).blk t).view.emb (ix2 p k)) = V m c main_arg0 _
    refine congrArg (V m c main_arg0) (funext fun a => Fin.ext ?_)
    match a with
    | ⟨0, _⟩ => show win0_0.index t (0 : Fin 2) * 2048 + 1 * p.val = _; rw [h00]; exact (by omega : t.val * 2048 + 1 * p.val = t.val * 2048 + p.val).trans hr.symm
    | ⟨1, _⟩ => show win0_0.index t (1 : Fin 2) * 9 + 1 * k.val = k.val; rw [h01]; omega
  · show V m c main_arg1 (((cfg0.win 1).blk t).view.emb (ix2 p k)) = V m c main_arg1 _
    refine congrArg (V m c main_arg1) (funext fun a => Fin.ext ?_)
    match a with
    | ⟨0, _⟩ => show win0_1.index t (0 : Fin 2) * 2048 + 1 * p.val = _; rw [h10]; exact (by omega : t.val * 2048 + 1 * p.val = t.val * 2048 + p.val).trans hr.symm
    | ⟨1, _⟩ => show win0_1.index t (1 : Fin 2) * 6 + 1 * k.val = k.val; rw [h11]; omega

/-! ## The blocks cover the array -/

/-- An index of the result array is in point `t`'s block iff each coordinate is in the block's range on its axis. -/
theorem mem_blk (t : Fin cfg0.N) (i : S262144x9.Idx) :
    i ∈ ((cfg0.win 7).blk t).view.set
      ↔ ∀ a : Fin 2, win0_7.index t a * S2048x9.size a ≤ (i a).val
          ∧ (i a).val < win0_7.index t a * S2048x9.size a + S2048x9.size a := by
  show i ∈ ((View.whole main_v0).slice (win0_7.rect t)).set ↔ _
  rw [View.set_slice_whole, Rect.mem_set_unit]
  exact Iff.rfl

/-- Row `r` of the result is in the block of point `r / 2048`. -/
theorem cover (i : S262144x9.Idx) :
    ∃ t : Fin cfg0.N, (cfg0.win 7).flush t = true ∧ i ∈ ((cfg0.win 7).blk t).view.set := by
  have hi0 : (i 0).val < 262144 := (i 0).isLt
  have hi1 : (i 1).val < 9 := (i 1).isLt
  have hN : cfg0.N = 128 := N_0
  let t : Fin cfg0.N := ⟨(i 0).val / 2048, by rw [hN]; omega⟩
  obtain ⟨-, -, -, -, -, -, -, -, -, -, -, -, -, -, h70, h71⟩ := idx_facts t
  refine ⟨t, flush0_7 t, ?_⟩
  rw [mem_blk]
  intro a
  match a with
  | ⟨0, _⟩ =>
    show win0_7.index t (0 : Fin 2) * 2048 ≤ (i 0).val ∧ (i 0).val < win0_7.index t (0 : Fin 2) * 2048 + 2048
    rw [h70]; show (i 0).val / 2048 * 2048 ≤ (i 0).val ∧ (i 0).val < (i 0).val / 2048 * 2048 + 2048; omega
  | ⟨1, _⟩ =>
    show win0_7.index t (1 : Fin 2) * 9 ≤ (i 1).val ∧ (i 1).val < win0_7.index t (1 : Fin 2) * 9 + 9
    rw [h71]; omega

/-- THE ARRAY after the run is the network of the argument arrays. -/
theorem final (c : Dev nD) : (dats m 0 c).arrAt 7 cfg0.N = G m c :=
  (dats m 0 c).arrAt_eq_of_cover 7 (G m c) (fun t _ => flushed_eq m c t) (cover)

/-! ## The run, read -/

/-- The kernel's run: the result array at the network of the arguments, the arguments unchanged. -/
theorem run : θ_run defs (onTc (τ := τ) (main (F := Ideal))) ⟨m, fun _ => 0, ρ⟩ fun r => ∀ c : Dev nD,
      r.2.mem ((c : Thread nD τ).loc main_v0)
          = net (N := 262144) (m ((c : Thread nD τ).loc main_arg0)) (m ((c : Thread nD τ).loc main_arg1))
              (m ((c : Thread nD τ).loc main_arg2)) (m ((c : Thread nD τ).loc main_arg3))
              (m ((c : Thread nD τ).loc main_arg4)) (m ((c : Thread nD τ).loc main_arg5))
              (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.Whole

end
-- ==== Proof.RefNet.lean ====
import proofs.«111007_j76038101008853_1_alg».proof.Proof.Gen.ReferenceIdeal.Read
import proofs.«111007_j76038101008853_1_alg».proof.Proof.RowNet
import proofs.«111007_j76038101008853_1_alg».proof.Proof.LibColumns
import Idealize.ShloMosaic.Lib.Pipeline.Value
import Idealize.ShloMosaic.Lib.ValueIdx

/-!
# The reference is the network

The reference computes the same network on all 262144 rows at once: three whole matrix products with `tanh`, the two
halves of the hidden layers multiplied, two more products, the nine columns each built from single columns of the two
stacks of heads, and the nine columns joined along axis 1. Read at `(r, c)`, each product is the plain sum over the
shared coordinate, each slice shifts the column, and the joined array at column `c` is the `c`-th piece at `(r, 0)`:
the result is `RowNet.net` on 262144 rows.
-/

noncomputable section

open scoped BigOperators

namespace Cert.ReferenceIdeal.RefValue

open Cert.ReferenceIdeal Cert.ReferenceIdeal.Read Idealize.ShloMosaic Idealize.ShloMosaic.ValueIdx Cert.RowNet
open Idealize.ShloMosaic.Columns

variable (x0 : (⟨S262144x9, .f32⟩ : BufTy).Contents (Elt Ideal)) (x1 : (⟨S262144x6, .f32⟩ : BufTy).Contents (Elt Ideal))
  (x2 : (⟨S9x256, .f32⟩ : BufTy).Contents (Elt Ideal)) (x3 : (⟨S6x256, .f32⟩ : BufTy).Contents (Elt Ideal))
  (x4 : (⟨S256x256, .f32⟩ : BufTy).Contents (Elt Ideal)) (x5 : (⟨S128x5, .f32⟩ : BufTy).Contents (Elt Ideal))
  (x6 : (⟨S128x4, .f32⟩ : BufTy).Contents (Elt Ideal))

/-! ## The hidden layers -/

theorem v1_at (r : Fin 262144) (j : Fin 256) :
    val_main_v1 (F := Ideal) x0 x2 (ix2 r j) = hidX x2 (fun k => x0 (ix2 r k)) j := by
  rw [val_main_v1_apply, val_main_v0_apply]
  refine congrArg Ideal.tanh (Finset.sum_congr rfl fun k _ => ?_)
  rw [ix2_ext (lidx_main_v0 (ix2 r j) k) r k rfl rfl, ix2_ext (ridx_main_v0 (ix2 r j) k) k j rfl rfl]

theorem v3_at (r : Fin 262144) (j : Fin 256) :
    val_main_v3 (F := Ideal) x0 x2 x4 (ix2 r j) = hidXX x2 x4 (fun k => x0 (ix2 r k)) j := by
  rw [val_main_v3_apply, val_main_v2_apply]
  refine congrArg Ideal.tanh (Finset.sum_congr rfl fun k _ => ?_)
  rw [ix2_ext (lidx_main_v2 (ix2 r j) k) r k rfl rfl, ix2_ext (ridx_main_v2 (ix2 r j) k) k j rfl rfl, v1_at]

theorem v5_at (r : Fin 262144) (j : Fin 256) :
    val_main_v5 (F := Ideal) x1 x3 (ix2 r j) = hidY x3 (fun k => x1 (ix2 r k)) j := by
  rw [val_main_v5_apply, val_main_v4_apply]
  refine congrArg Ideal.tanh (Finset.sum_congr rfl fun k _ => ?_)
  rw [ix2_ext (lidx_main_v4 (ix2 r j) k) r k rfl rfl, ix2_ext (ridx_main_v4 (ix2 r j) k) k j rfl rfl]

/-! ## The two halves, multiplied -/

theorem v10_at (r : Fin 262144) (k : Fin 128) :
    val_main_v10 (F := Ideal) x0 x1 x2 x3 x4 (ix2 r k) = gateP x2 x3 x4 (fun k => x0 (ix2 r k)) (fun k => x1 (ix2 r k)) k := by
  rw [val_main_v10_apply, val_main_v6_apply, val_main_v8_apply,
    ix2_ext (idx_main_v6 (ix2 r k)) r ⟨k.val, by omega⟩ rfl rfl,
    ix2_ext (idx_main_v8 (ix2 r k)) r ⟨k.val, by omega⟩ rfl rfl, v3_at, v5_at]
  rfl

theorem v11_at (r : Fin 262144) (k : Fin 128) :
    val_main_v11 (F := Ideal) x0 x1 x2 x3 x4 (ix2 r k) = gateQ x2 x3 x4 (fun k => x0 (ix2 r k)) (fun k => x1 (ix2 r k)) k := by
  rw [val_main_v11_apply, val_main_v7_apply, val_main_v9_apply,
    ix2_ext (idx_main_v7 (ix2 r k)) r ⟨128 + k.val, by omega⟩ rfl rfl,
    ix2_ext (idx_main_v9 (ix2 r k)) r ⟨128 + k.val, by omega⟩ rfl rfl, v3_at, v5_at]
  rfl

/-! ## The two stacks of heads -/

theorem v12_at (r : Fin 262144) (c : Fin 5) :
    val_main_v12 (F := Ideal) x0 x1 x2 x3 x4 x5 (ix2 r c) = headP x2 x3 x4 x5 (fun k => x0 (ix2 r k)) (fun k => x1 (ix2 r k)) c := by
  rw [val_main_v12_apply]
  refine Finset.sum_congr rfl fun k _ => ?_
  rw [ix2_ext (lidx_main_v12 (ix2 r c) k) r k rfl rfl, ix2_ext (ridx_main_v12 (ix2 r c) k) k c rfl rfl, v10_at]

theorem v13_at (r : Fin 262144) (c : Fin 4) :
    val_main_v13 (F := Ideal) x0 x1 x2 x3 x4 x6 (ix2 r c) = headQ x2 x3 x4 x6 (fun k => x0 (ix2 r k)) (fun k => x1 (ix2 r k)) c := by
  rw [val_main_v13_apply]
  refine Finset.sum_congr rfl fun k _ => ?_
  rw [ix2_ext (lidx_main_v13 (ix2 r c) k) r k rfl rfl, ix2_ext (ridx_main_v13 (ix2 r c) k) k c rfl rfl, v11_at]

/-! ## Their single columns -/

theorem v14_at (r : Fin 262144) (q : Fin 1) :
    val_main_v14 (F := Ideal) x0 x1 x2 x3 x4 x5 (ix2 r q) = (headP x2 x3 x4 x5 (fun k => x0 (ix2 r k)) (fun k => x1 (ix2 r k)) 0) := by
  rw [val_main_v14_apply, ix2_ext (idx_main_v14 (ix2 r q)) r (0 : Fin 5) rfl (by show q.val = 0; omega), v12_at]
theorem v15_at (r : Fin 262144) (q : Fin 1) :
    val_main_v15 (F := Ideal) x0 x1 x2 x3 x4 x5 (ix2 r q) = (headP x2 x3 x4 x5 (fun k => x0 (ix2 r k)) (fun k => x1 (ix2 r k)) 1) := by
  rw [val_main_v15_apply, ix2_ext (idx_main_v15 (ix2 r q)) r (1 : Fin 5) rfl (by show 1 + q.val = 1; omega), v12_at]
theorem v16_at (r : Fin 262144) (q : Fin 1) :
    val_main_v16 (F := Ideal) x0 x1 x2 x3 x4 x5 (ix2 r q) = (headP x2 x3 x4 x5 (fun k => x0 (ix2 r k)) (fun k => x1 (ix2 r k)) 2) := by
  rw [val_main_v16_apply, ix2_ext (idx_main_v16 (ix2 r q)) r (2 : Fin 5) rfl (by show 2 + q.val = 2; omega), v12_at]
theorem v17_at (r : Fin 262144) (q : Fin 1) :
    val_main_v17 (F := Ideal) x0 x1 x2 x3 x4 x5 (ix2 r q) = (headP x2 x3 x4 x5 (fun k => x0 (ix2 r k)) (fun k => x1 (ix2 r k)) 3) := by
  rw [val_main_v17_apply, ix2_ext (idx_main_v17 (ix2 r q)) r (3 : Fin 5) rfl (by show 3 + q.val = 3; omega), v12_at]
theorem v18_at (r : Fin 262144) (q : Fin 1) :
    val_main_v18 (F := Ideal) x0 x1 x2 x3 x4 x5 (ix2 r q) = (headP x2 x3 x4 x5 (fun k => x0 (ix2 r k)) (fun k => x1 (ix2 r k)) 4) := by
  rw [val_main_v18_apply, ix2_ext (idx_main_v18 (ix2 r q)) r (4 : Fin 5) rfl (by show 4 + q.val = 4; omega), v12_at]
theorem v19_at (r : Fin 262144) (q : Fin 1) :
    val_main_v19 (F := Ideal) x0 x1 x2 x3 x4 x6 (ix2 r q) = (headQ x2 x3 x4 x6 (fun k => x0 (ix2 r k)) (fun k => x1 (ix2 r k)) 0) := by
  rw [val_main_v19_apply, ix2_ext (idx_main_v19 (ix2 r q)) r (0 : Fin 4) rfl (by show q.val = 0; omega), v13_at]
theorem v20_at (r : Fin 262144) (q : Fin 1) :
    val_main_v20 (F := Ideal) x0 x1 x2 x3 x4 x6 (ix2 r q) = (headQ x2 x3 x4 x6 (fun k => x0 (ix2 r k)) (fun k => x1 (ix2 r k)) 1) := by
  rw [val_main_v20_apply, ix2_ext (idx_main_v20 (ix2 r q)) r (1 : Fin 4) rfl (by show 1 + q.val = 1; omega), v13_at]
theorem v21_at (r : Fin 262144) (q : Fin 1) :
    val_main_v21 (F := Ideal) x0 x1 x2 x3 x4 x6 (ix2 r q) = (headQ x2 x3 x4 x6 (fun k => x0 (ix2 r k)) (fun k => x1 (ix2 r k)) 2) := by
  rw [val_main_v21_apply, ix2_ext (idx_main_v21 (ix2 r q)) r (2 : Fin 4) rfl (by show 2 + q.val = 2; omega), v13_at]
theorem v22_at (r : Fin 262144) (q : Fin 1) :
    val_main_v22 (F := Ideal) x0 x1 x2 x3 x4 x6 (ix2 r q) = (headQ x2 x3 x4 x6 (fun k => x0 (ix2 r k)) (fun k => x1 (ix2 r k)) 3) := by
  rw [val_main_v22_apply, ix2_ext (idx_main_v22 (ix2 r q)) r (3 : Fin 4) rfl (by show 3 + q.val = 3; omega), v13_at]

/-! ## The five columns through the exponential linear unit -/

theorem v29_at (r : Fin 262144) (q : Fin 1) :
    val_main_v29 (F := Ideal) x0 x1 x2 x3 x4 x5 (ix2 r q) = elu (headP x2 x3 x4 x5 (fun k => x0 (ix2 r k)) (fun k => x1 (ix2 r k)) 0) (headP x2 x3 x4 x5 (fun k => x0 (ix2 r k)) (fun k => x1 (ix2 r k)) 0) := by
  rw [val_main_v29_apply, val_main_v23_apply, val_main_v28_apply, val_main_v27_apply, val_main_v26_apply, val_main_v24_apply, val_main_call0_v0_apply, val_main_call1_v0_apply, val_main_v25_apply, v14_at]
  rfl

theorem v36_at (r : Fin 262144) (q : Fin 1) :
    val_main_v36 (F := Ideal) x0 x1 x2 x3 x4 x5 (ix2 r q) = elu (headP x2 x3 x4 x5 (fun k => x0 (ix2 r k)) (fun k => x1 (ix2 r k)) 1) (headP x2 x3 x4 x5 (fun k => x0 (ix2 r k)) (fun k => x1 (ix2 r k)) 1) := by
  rw [val_main_v36_apply, val_main_v30_apply, val_main_v35_apply, val_main_v34_apply, val_main_v33_apply, val_main_v31_apply, val_main_call2_v0_apply, val_main_call3_v0_apply, val_main_v32_apply, v15_at]
  rfl

theorem v43_at (r : Fin 262144) (q : Fin 1) :
    val_main_v43 (F := Ideal) x0 x1 x2 x3 x4 x5 (ix2 r q) = elu (headP x2 x3 x4 x5 (fun k => x0 (ix2 r k)) (fun k => x1 (ix2 r k)) 1) (headP x2 x3 x4 x5 (fun k => x0 (ix2 r k)) (fun k => x1 (ix2 r k)) 2) := by
  rw [val_main_v43_apply, val_main_v37_apply, val_main_v42_apply, val_main_v41_apply, val_main_v40_apply, val_main_v38_apply, val_main_call4_v0_apply, val_main_call5_v0_apply, val_main_v39_apply, v15_at, v16_at]
  rfl

theorem v50_at (r : Fin 262144) (q : Fin 1) :
    val_main_v50 (F := Ideal) x0 x1 x2 x3 x4 x5 x6 (ix2 r q) = elu (headP x2 x3 x4 x5 (fun k => x0 (ix2 r k)) (fun k => x1 (ix2 r k)) 1) (headQ x2 x3 x4 x6 (fun k => x0 (ix2 r k)) (fun k => x1 (ix2 r k)) 0) := by
  rw [val_main_v50_apply, val_main_v44_apply, val_main_v49_apply, val_main_v48_apply, val_main_v47_apply, val_main_v45_apply, val_main_call6_v0_apply, val_main_call7_v0_apply, val_main_v46_apply, v15_at, v19_at]
  rfl

theorem v57_at (r : Fin 262144) (q : Fin 1) :
    val_main_v57 (F := Ideal) x0 x1 x2 x3 x4 x5 x6 (ix2 r q) = elu (headP x2 x3 x4 x5 (fun k => x0 (ix2 r k)) (fun k => x1 (ix2 r k)) 1) (headQ x2 x3 x4 x6 (fun k => x0 (ix2 r k)) (fun k => x1 (ix2 r k)) 1) := by
  rw [val_main_v57_apply, val_main_v51_apply, val_main_v56_apply, val_main_v55_apply, val_main_v54_apply, val_main_v52_apply, val_main_call8_v0_apply, val_main_call9_v0_apply, val_main_v53_apply, v15_at, v20_at]
  rfl

/-! ## The joined array -/

/-- THE REFERENCE: its result is the network on all 262144 rows. -/
theorem ref_eq :
    val_main_v58 (F := Ideal) x0 x1 x2 x3 x4 x5 x6 = net (N := 262144) x0 x1 x2 x3 x4 x5 x6 := by
  funext i
  obtain ⟨r, c, rfl⟩ : ∃ (r : Fin 262144) (c : Fin 9), i = ix2 r c := ⟨i 0, i 1, eq_ix2 i⟩
  unfold val_main_v58
  refine (concat9_apply _ _ _ _ _ _ _ _ _ _ r c).trans ?_
  rw [net_apply]
  match c with
  | ⟨0, _⟩ => exact v29_at x0 x1 x2 x3 x4 x5 r 0
  | ⟨1, _⟩ => exact v36_at x0 x1 x2 x3 x4 x5 r 0
  | ⟨2, _⟩ => exact v43_at x0 x1 x2 x3 x4 x5 r 0
  | ⟨3, _⟩ => exact v50_at x0 x1 x2 x3 x4 x5 x6 r 0
  | ⟨4, _⟩ => exact v57_at x0 x1 x2 x3 x4 x5 x6 r 0
  | ⟨5, _⟩ => exact v17_at x0 x1 x2 x3 x4 x5 r 0
  | ⟨6, _⟩ => exact v18_at x0 x1 x2 x3 x4 x5 r 0
  | ⟨7, _⟩ => exact v21_at x0 x1 x2 x3 x4 x6 r 0
  | ⟨8, _⟩ => exact v22_at x0 x1 x2 x3 x4 x6 r 0

end Cert.ReferenceIdeal.RefValue

end
-- ==== Proof.lean ====
/-
  A two-branch perceptron with nine heads, block by block against all rows at once.

  For every row, `x` passes through two `tanh` layers (`x·W1`, then `·W3`) and `y` through one (`y·W2`); the lower and
  the upper halves of the two 256-wide hidden rows are multiplied and sent through `Wp` (five heads) and `Wq` (four
  heads); five of the nine result columns apply a hand-rolled exponential linear unit
  `max pos 0 − max (−(exp g − 1)) 0` to pairs of heads, the other four are heads as they are (Proof/RowNet.lean:
  `RowNet.rowOut`, `RowNet.net`).

  The kernel does this on 128 blocks of 2048 rows, with its operands cut to a shorter float format before each of its
  five matrix products and `0 − a` written for `−a`; the reference does it on all 262144 rows at once. Over the
  extended reals a change of float format is the identity, a matrix product into a zero accumulator is the plain sum
  over the shared coordinate on both sides, and `0 − a = −a`. A row of the result depends on the same row of `x` and of
  `y` only, so each block of the kernel is the network on its rows (Proof/KernelBlock.lean), the 128 blocks cover the
  result array (Proof/KernelArray.lean), and the reference's joined nine columns are the same function
  (Proof/RefNet.lean). No law used here needs the inputs to be finite: both sides are one term in `+`, `·`, `tanh`,
  `exp`, `max`, `−`.

  The kernel was printed with no rewrite, so its idealization is its own text read over the extended reals and there is
  nothing to preserve.
-/
import proofs.«111007_j76038101008853_1_alg».proof.Defs
import proofs.«111007_j76038101008853_1_alg».proof.Proof.Gen.Kernel
import proofs.«111007_j76038101008853_1_alg».proof.Proof.Gen.Kernel.Frame
import proofs.«111007_j76038101008853_1_alg».proof.Proof.Gen.KernelIdeal
import proofs.«111007_j76038101008853_1_alg».proof.Proof.Gen.KernelIdeal.Frame
import proofs.«111007_j76038101008853_1_alg».proof.Proof.Gen.KernelIdeal.Value
import proofs.«111007_j76038101008853_1_alg».proof.Proof.Gen.ReferenceIdeal
import proofs.«111007_j76038101008853_1_alg».proof.Proof.Gen.ReferenceIdeal.Run
import proofs.«111007_j76038101008853_1_alg».proof.Proof.Gen.ReferenceIdeal.Read
import proofs.«111007_j76038101008853_1_alg».proof.Proof.Gen.Pre_finite_inputs
import proofs.«111007_j76038101008853_1_alg».proof.Proof.KernelArray
import proofs.«111007_j76038101008853_1_alg».proof.Proof.RefNet
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both programs end with the network of their (equal) arguments in their result arrays. -/
theorem algebraic : Cert.algebraic_KernelIdeal_ReferenceIdeal := by
  intro m ρ m' ρ' _ hagree
  refine ⟨fun c => Cert.RowNet.net (N := 262144) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, Cert.ReferenceIdeal.RefValue.ref_eq]
  obtain ⟨e0, e1, e2, e3, e4, e5, e6⟩ := hagree c
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
